-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x4 : Shape := ⟨2, ![800000, 4]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S800000x4 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x4 .f32 := Host.absf main_arg2
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000x4 : Shape := ⟨2, ![800000, 4]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 152
  | .vmem => 56
  | .smem => 0
  | _ => 0

abbrev hbmTy0_0 (i : Nat) : BufTy := match i % 128 with
  | 0 => ⟨S50000x128, .f32⟩
  | 1 => ⟨S2x800000, .i32⟩
  | 2 => ⟨S800000x4, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x128, .f32⟩
  | 103 => ⟨S850000x1, .f32⟩
  | 104 => ⟨S850000x128, .f32⟩
  | 105 => ⟨S850000x128, .f32⟩
  | 106 => ⟨S_, .f32⟩
  | 107 => ⟨S50000x128, .f32⟩
  | 108 => ⟨S850000x1, .i32⟩
  | 109 => ⟨S50000x128, .f32⟩
  | 110 => ⟨S1x128, .f32⟩
  | 111 => ⟨S50000x128, .f32⟩
  | 112 => ⟨S50000x128, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x1, .f32⟩
  | 123 => ⟨S850000x128, .f32⟩
  | 124 => ⟨S850000x128, .f32⟩
  | 125 => ⟨S_, .f32⟩
  | 126 => ⟨S50000x128, .f32⟩
  | 127 => ⟨S850000x1, .i32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000x128, .f32⟩
  | 13 => ⟨S850000x1, .f32⟩
  | 14 => ⟨S850000x128, .f32⟩
  | 15 => ⟨S850000x128, .f32⟩
  | 16 => ⟨S_, .f32⟩
  | 17 => ⟨S50000x128, .f32⟩
  | 18 => ⟨S850000x1, .i32⟩
  | 19 => ⟨S50000x128, .f32⟩
  | 20 => ⟨S1x128, .f32⟩
  | 21 => ⟨S50000x128, .f32⟩
  | 22 => ⟨S1x128, .f32⟩
  | 23 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_12 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_14 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_15 : Ref sig .tc := ⟨.hbm, 113, rfl⟩
abbrev main_v79 : Ref sig .tc := ⟨.hbm, 114, rfl⟩
abbrev main_v80 : Ref sig .tc := ⟨.hbm, 115, rfl⟩
abbrev main_c_16 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_17 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_18 : Ref sig .tc := ⟨.hbm, 132, rfl⟩
abbrev main_v95 : Ref sig .tc := ⟨.hbm, 133, rfl⟩
abbrev main_v96 : Ref sig .tc := ⟨.hbm, 134, rfl⟩
abbrev main_c_19 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_20 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg3_0 : Ref sig .tc := ⟨.vmem, 54, rfl⟩
abbrev cc10_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem3_0 : DmaSem sig := 54
abbrev cc10_sem3_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x128.size a ≤ S50000x128.size a
  hwx10_3 : ∀ i : grid10.Coords, EltTy.bits .f32 = 32 ∨ (Rect.block (s := S50000x128) S5000x128.size (cc10_transform_3 i) (hinb10_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v93) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v94) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v107) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v108) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v109) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v109) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v110) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v111) S5000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x4 : Shape := ⟨2, ![800000, 4]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 177
  | .vmem => 0
  | .smem => 0
  | _ => 0

abbrev hbmTy0_0 (i : Nat) : BufTy := match i % 128 with
  | 0 => ⟨S50000x128, .f32⟩
  | 1 => ⟨S2x800000, .i32⟩
  | 2 => ⟨S800000x4, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S850000x1, .f32⟩
  | 89 => ⟨S850000x128, .f32⟩
  | 90 => ⟨S850000x128, .f32⟩
  | 91 => ⟨S_, .f32⟩
  | 92 => ⟨S50000x128, .f32⟩
  | 93 => ⟨S850000x1, .i32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x128, .f32⟩
  | 111 => ⟨S850000x1, .f32⟩
  | 112 => ⟨S850000x128, .f32⟩
  | 113 => ⟨S850000x128, .f32⟩
  | 114 => ⟨S_, .f32⟩
  | 115 => ⟨S50000x128, .f32⟩
  | 116 => ⟨S850000x1, .i32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S_, .i32⟩
  | 126 => ⟨S850000, .i32⟩
  | 127 => ⟨S850000, .i1⟩
  | _ => ⟨S50000x128, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x128, .f32⟩
  | 6 => ⟨S850000x1, .f32⟩
  | 7 => ⟨S850000x128, .f32⟩
  | 8 => ⟨S850000x128, .f32⟩
  | 9 => ⟨S_, .f32⟩
  | 10 => ⟨S50000x128, .f32⟩
  | 11 => ⟨S850000x1, .i32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000x128, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000x128, .f32⟩
  | 29 => ⟨S850000x1, .f32⟩
  | 30 => ⟨S850000x128, .f32⟩
  | 31 => ⟨S850000x128, .f32⟩
  | 32 => ⟨S_, .f32⟩
  | 33 => ⟨S50000x128, .f32⟩
  | 34 => ⟨S850000x1, .i32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_c_12 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_14 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_call3_cst : Ref sig .tc := ⟨.hbm, 121, rfl⟩
abbrev main_call3_v0 : Ref sig .tc := ⟨.hbm, 122, rfl⟩
abbrev main_v83 : Ref sig .tc := ⟨.hbm, 123, rfl⟩
abbrev main_v84 : Ref sig .tc := ⟨.hbm, 124, rfl⟩
abbrev main_c_15 : Ref sig .tc := ⟨.hbm, 125, rfl⟩
abbrev main_v85 : Ref sig .tc := ⟨.hbm, 126, rfl⟩
abbrev main_v86 : Ref sig .tc := ⟨.hbm, 127, rfl⟩
abbrev main_c_16 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_17 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_call4_cst : Ref sig .tc := ⟨.hbm, 144, rfl⟩
abbrev main_call4_v0 : Ref sig .tc := ⟨.hbm, 145, rfl⟩
abbrev main_v101 : Ref sig .tc := ⟨.hbm, 146, rfl⟩
abbrev main_v102 : Ref sig .tc := ⟨.hbm, 147, rfl⟩
abbrev main_c_18 : Ref sig .tc := ⟨.hbm, 148, rfl⟩
abbrev main_v103 : Ref sig .tc := ⟨.hbm, 149, rfl⟩
abbrev main_v104 : Ref sig .tc := ⟨.hbm, 150, rfl⟩
abbrev main_c_19 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_20 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_call5_cst : Ref sig .tc := ⟨.hbm, 167, rfl⟩
abbrev main_call5_v0 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_call6_cst : Ref sig .tc := ⟨.hbm, 174, rfl⟩
abbrev main_call6_v0 : Ref sig .tc := ⟨.hbm, 175, rfl⟩
abbrev main_v124 : Ref sig .tc := ⟨.hbm, 176, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named.

  @main is twenty segments: stretches of host operations and eleven pipelined regions. The contents of the
  TensorCore's buffers at the boundaries form a chain `W0, …, W20` from the launch memory: a host stretch maps the
  contents to what its operations compute from them, a region replaces its output array by what its write-backs leave
  and keeps every other buffer. Every weakly fair execution terminates, nothing faulting, with every unscoped buffer
  at the last link `W20`; so the result buffer ends at `W20` read at it, and the argument arrays, which no
  operation and no region writes, end as launched.
-/
import proofs.«138359_j6201932775762_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, every argument array as launched. The launch
    over the twenty segments is the one the frame uses; what is read out of the final state is one buffer more. -/
theorem run_main : θ_run defs (onTc (τ := τ) (main (F := F))) ⟨m, fun _ => 0, ρ⟩ (fun r => ∀ c : Dev nD,
      r.2.mem ((c.tc : Thread nD τ).loc main_v111) = W20 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v111 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c)⟩)

end Cert.KernelIdeal.RunValue

end
-- ==== Proof.Carry.lean ====
/-
  What the segments of the idealized kernel's @main leave alone.

  The buffer contents at the twenty boundaries form the chain `W0, …, W20`. A stretch of host operations changes only
  the buffers its operations write; a region changes only its output array. The parameter arrays (the node features,
  the six weight matrices and the six biases) are written by nothing, and the three edge vectors computed before the
  first region (each edge's source, its target, its normalisation weight) are written by nothing after it. So a
  parameter read at any boundary is the launch memory's, and an edge vector read at any later boundary is what it was
  at the first region's entry.
-/
import proofs.«138359_j6201932775762_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The parameter arrays the program reads: the node features, the weights and the biases. -/
abbrev IsParam (b : Ref sig .tc) : Prop :=
  b = main_arg0 ∨ b = main_arg3 ∨ b = main_arg4 ∨ b = main_arg5 ∨ b = main_arg6 ∨ b = main_arg7 ∨ b = main_arg8 ∨ b = main_arg9 ∨ b = main_arg10 ∨ b = main_arg11 ∨ b = main_arg12 ∨ b = main_arg13 ∨ b = main_arg14

/-- What is carried past the first region: the three edge vectors and the later layers' parameters. -/
abbrev IsLate (b : Ref sig .tc) : Prop :=
  b = main_v3 ∨ b = main_v6 ∨ b = main_v29 ∨ b = main_arg4 ∨ b = main_arg5 ∨ b = main_arg6 ∨ b = main_arg7 ∨ b = main_arg8 ∨ b = main_arg9 ∨ b = main_arg10 ∨ b = main_arg11 ∨ b = main_arg12 ∨ b = main_arg13 ∨ b = main_arg14

/-- A stretch of host operations leaves a buffer that none of its operations writes: each operation writes its one
    result buffer, and the buffer in question is another reference. -/
macro "stretch_keeps" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## One boundary to the next -/

/-- The stretch `hostOps0` writes none of them. -/
theorem keep0 (c : Dev nD) {b : Ref sig .tc} (hb : IsParam b) :
    W1 m ρ c (Proc.devRef .tc b) = W0 m ρ c (Proc.devRef .tc b) := by
  rcases hb with rfl | rfl | rfl | rfl | rfl | rfl | rfl | rfl | rfl | rfl | rfl | rfl | rfl <;> stretch_keeps hostOps0

/-- The stretch `hostOps0_1` writes none of them. -/
theorem keep1 (c : Dev nD) {b : Ref sig .tc} (hb : IsParam b) :
    W2 m ρ c (Proc.devRef .tc b) = W1 m ρ c (Proc.devRef .tc b) := by
  rcases hb with rfl | rfl | rfl | rfl | rfl | rfl | rfl | rfl | rfl | rfl | rfl | rfl | rfl <;> stretch_keeps hostOps0_1

/-- The stretch `hostOps0_2` writes none of them. -/
theorem keep2 (c : Dev nD) {b : Ref sig .tc} (hb : IsParam b) :
    W3 m ρ c (Proc.devRef .tc b) = W2 m ρ c (Proc.devRef .tc b) := by
  rcases hb with rfl | rfl | rfl | rfl | rfl | rfl | rfl | rfl | rfl | rfl | rfl | rfl | rfl <;> stretch_keeps hostOps0_2

/-- Region 0 has none of them among its arrays. -/
theorem keep3 (c : Dev nD) {b : Ref sig .tc} (hb : IsLate b) :
    W4 m ρ c (Proc.devRef .tc b) = W3 m ρ c (Proc.devRef .tc b) := by
  rcases hb with rfl | rfl | rfl | rfl | rfl | rfl | rfl | rfl | rfl | rfl | rfl | rfl | rfl | rfl <;> exact W4_of_ne m ρ c _ (by decide)

/-- The stretch `hostOps1` writes none of them. -/
theorem keep4 (c : Dev nD) {b : Ref sig .tc} (hb : IsLate b) :
    W5 m ρ c (Proc.devRef .tc b) = W4 m ρ c (Proc.devRef .tc b) := by
  rcases hb with rfl | rfl | rfl | rfl | rfl | rfl | rfl | rfl | rfl | rfl | rfl | rfl | rfl | rfl <;> stretch_keeps hostOps1

/-- Region 1 has none of them among its arrays. -/
theorem keep5 (c : Dev nD) {b : Ref sig .tc} (hb : IsLate b) :
    W6 m ρ c (Proc.devRef .tc b) = W5 m ρ c (Proc.devRef .tc b) := by
  rcases hb with rfl | rfl | rfl | rfl | rfl | rfl | rfl | rfl | rfl | rfl | rfl | rfl | rfl | rfl <;> exact W6_of_ne m ρ c _ (by decide)

/-- Region 2 has none of them as its output array (the one weight matrix among them is an input window's array,
    which a region leaves as it found it). -/
theorem keep6 (c : Dev nD) {b : Ref sig .tc} (hb : IsLate b) :
    W7 m ρ c (Proc.devRef .tc b) = W6 m ρ c (Proc.devRef .tc b) := by
  rcases hb with rfl | rfl | rfl | rfl | rfl | rfl | rfl | rfl | rfl | rfl | rfl | rfl | rfl | rfl <;>
    first
    | exact W7_of_ne m ρ c _ (by decide)
    | exact (W7_arr m ρ c 1).trans (((dat2 (V6 m ρ) c).arrAt_in 1 rfl _).trans (A_eq2 (V6 m ρ) c 1))

/-- The stretch `hostOps3` writes none of them. -/
theorem keep7 (c : Dev nD) {b : Ref sig .tc} (hb : IsLate b) :
    W8 m ρ c (Proc.devRef .tc b) = W7 m ρ c (Proc.devRef .tc b) := by
  rcases hb with rfl | rfl | rfl | rfl | rfl | rfl | rfl | rfl | rfl | rfl | rfl | rfl | rfl | rfl <;> stretch_keeps hostOps3

/-- Region 3 has none of them among its arrays. -/
theorem keep8 (c : Dev nD) {b : Ref sig .tc} (hb : IsLate b) :
    W9 m ρ c (Proc.devRef .tc b) = W8 m ρ c (Proc.devRef .tc b) := by
  rcases hb with rfl | rfl | rfl | rfl | rfl | rfl | rfl | rfl | rfl | rfl | rfl | rfl | rfl | rfl <;> exact W9_of_ne m ρ c _ (by decide)

/-- Region 4 has none of them as its output array (the one weight matrix among them is an input window's array,
    which a region leaves as it found it). -/
theorem keep9 (c : Dev nD) {b : Ref sig .tc} (hb : IsLate b) :
    W10 m ρ c (Proc.devRef .tc b) = W9 m ρ c (Proc.devRef .tc b) := by
  rcases hb with rfl | rfl | rfl | rfl | rfl | rfl | rfl | rfl | rfl | rfl | rfl | rfl | rfl | rfl <;>
    first
    | exact W10_of_ne m ρ c _ (by decide)
    | exact (W10_arr m ρ c 1).trans (((dat4 (V9 m ρ) c).arrAt_in 1 rfl _).trans (A_eq4 (V9 m ρ) c 1))

/-- The stretch `hostOps5` writes none of them. -/
theorem keep10 (c : Dev nD) {b : Ref sig .tc} (hb : IsLate b) :
    W11 m ρ c (Proc.devRef .tc b) = W10 m ρ c (Proc.devRef .tc b) := by
  rcases hb with rfl | rfl | rfl | rfl | rfl | rfl | rfl | rfl | rfl | rfl | rfl | rfl | rfl | rfl <;> stretch_keeps hostOps5

/-- Region 5 has none of them among its arrays. -/
theorem keep11 (c : Dev nD) {b : Ref sig .tc} (hb : IsLate b) :
    W12 m ρ c (Proc.devRef .tc b) = W11 m ρ c (Proc.devRef .tc b) := by
  rcases hb with rfl | rfl | rfl | rfl | rfl | rfl | rfl | rfl | rfl | rfl | rfl | rfl | rfl | rfl <;> exact W12_of_ne m ρ c _ (by decide)

/-- Region 6 has none of them as its output array (the one weight matrix among them is an input window's array,
    which a region leaves as it found it). -/
theorem keep12 (c : Dev nD) {b : Ref sig .tc} (hb : IsLate b) :
    W13 m ρ c (Proc.devRef .tc b) = W12 m ρ c (Proc.devRef .tc b) := by
  rcases hb with rfl | rfl | rfl | rfl | rfl | rfl | rfl | rfl | rfl | rfl | rfl | rfl | rfl | rfl <;>
    first
    | exact W13_of_ne m ρ c _ (by decide)
    | exact (W13_arr m ρ c 1).trans (((dat6 (V12 m ρ) c).arrAt_in 1 rfl _).trans (A_eq6 (V12 m ρ) c 1))

/-- The stretch `hostOps7` writes none of them. -/
theorem keep13 (c : Dev nD) {b : Ref sig .tc} (hb : IsLate b) :
    W14 m ρ c (Proc.devRef .tc b) = W13 m ρ c (Proc.devRef .tc b) := by
  rcases hb with rfl | rfl | rfl | rfl | rfl | rfl | rfl | rfl | rfl | rfl | rfl | rfl | rfl | rfl <;> stretch_keeps hostOps7

/-- Region 7 has none of them among its arrays. -/
theorem keep14 (c : Dev nD) {b : Ref sig .tc} (hb : IsLate b) :
    W15 m ρ c (Proc.devRef .tc b) = W14 m ρ c (Proc.devRef .tc b) := by
  rcases hb with rfl | rfl | rfl | rfl | rfl | rfl | rfl | rfl | rfl | rfl | rfl | rfl | rfl | rfl <;> exact W15_of_ne m ρ c _ (by decide)

/-- Region 8 has none of them as its output array (the one weight matrix among them is an input window's array,
    which a region leaves as it found it). -/
theorem keep15 (c : Dev nD) {b : Ref sig .tc} (hb : IsLate b) :
    W16 m ρ c (Proc.devRef .tc b) = W15 m ρ c (Proc.devRef .tc b) := by
  rcases hb with rfl | rfl | rfl | rfl | rfl | rfl | rfl | rfl | rfl | rfl | rfl | rfl | rfl | rfl <;>
    first
    | exact W16_of_ne m ρ c _ (by decide)
    | exact (W16_arr m ρ c 1).trans (((dat8 (V15 m ρ) c).arrAt_in 1 rfl _).trans (A_eq8 (V15 m ρ) c 1))

/-- The stretch `hostOps9` writes none of them. -/
theorem keep16 (c : Dev nD) {b : Ref sig .tc} (hb : IsLate b) :
    W17 m ρ c (Proc.devRef .tc b) = W16 m ρ c (Proc.devRef .tc b) := by
  rcases hb with rfl | rfl | rfl | rfl | rfl | rfl | rfl | rfl | rfl | rfl | rfl | rfl | rfl | rfl <;> stretch_keeps hostOps9

/-- Region 9 has none of them among its arrays. -/
theorem keep17 (c : Dev nD) {b : Ref sig .tc} (hb : IsLate b) :
    W18 m ρ c (Proc.devRef .tc b) = W17 m ρ c (Proc.devRef .tc b) := by
  rcases hb with rfl | rfl | rfl | rfl | rfl | rfl | rfl | rfl | rfl | rfl | rfl | rfl | rfl | rfl <;> exact W18_of_ne m ρ c _ (by decide)

/-- The stretch `hostOps10` writes none of them. -/
theorem keep18 (c : Dev nD) {b : Ref sig .tc} (hb : IsLate b) :
    W19 m ρ c (Proc.devRef .tc b) = W18 m ρ c (Proc.devRef .tc b) := by
  rcases hb with rfl | rfl | rfl | rfl | rfl | rfl | rfl | rfl | rfl | rfl | rfl | rfl | rfl | rfl <;> stretch_keeps hostOps10

/-! ## From a boundary back to the start -/

/-- A parameter array at the first region's entry is the launch memory's. -/
theorem param_at3 (c : Dev nD) {b : Ref sig .tc} (hb : IsParam b) :
    W3 m ρ c (Proc.devRef .tc b) = m ((c : Thread nD τ).loc b) :=
  (keep2 m ρ c hb).trans ((keep1 m ρ c hb).trans ((keep0 m ρ c hb).trans rfl))

/-- A carried buffer at a later boundary is what it was at the first region's entry. -/
theorem late_at4 (c : Dev nD) {b : Ref sig .tc} (hb : IsLate b) :
    W4 m ρ c (Proc.devRef .tc b) = W3 m ρ c (Proc.devRef .tc b) := keep3 m ρ c hb
theorem late_at5 (c : Dev nD) {b : Ref sig .tc} (hb : IsLate b) :
    W5 m ρ c (Proc.devRef .tc b) = W3 m ρ c (Proc.devRef .tc b) := (keep4 m ρ c hb).trans (late_at4 m ρ c hb)
theorem late_at6 (c : Dev nD) {b : Ref sig .tc} (hb : IsLate b) :
    W6 m ρ c (Proc.devRef .tc b) = W3 m ρ c (Proc.devRef .tc b) := (keep5 m ρ c hb).trans (late_at5 m ρ c hb)
theorem late_at7 (c : Dev nD) {b : Ref sig .tc} (hb : IsLate b) :
    W7 m ρ c (Proc.devRef .tc b) = W3 m ρ c (Proc.devRef .tc b) := (keep6 m ρ c hb).trans (late_at6 m ρ c hb)
theorem late_at8 (c : Dev nD) {b : Ref sig .tc} (hb : IsLate b) :
    W8 m ρ c (Proc.devRef .tc b) = W3 m ρ c (Proc.devRef .tc b) := (keep7 m ρ c hb).trans (late_at7 m ρ c hb)
theorem late_at9 (c : Dev nD) {b : Ref sig .tc} (hb : IsLate b) :
    W9 m ρ c (Proc.devRef .tc b) = W3 m ρ c (Proc.devRef .tc b) := (keep8 m ρ c hb).trans (late_at8 m ρ c hb)
theorem late_at10 (c : Dev nD) {b : Ref sig .tc} (hb : IsLate b) :
    W10 m ρ c (Proc.devRef .tc b) = W3 m ρ c (Proc.devRef .tc b) := (keep9 m ρ c hb).trans (late_at9 m ρ c hb)
theorem late_at11 (c : Dev nD) {b : Ref sig .tc} (hb : IsLate b) :
    W11 m ρ c (Proc.devRef .tc b) = W3 m ρ c (Proc.devRef .tc b) := (keep10 m ρ c hb).trans (late_at10 m ρ c hb)
theorem late_at12 (c : Dev nD) {b : Ref sig .tc} (hb : IsLate b) :
    W12 m ρ c (Proc.devRef .tc b) = W3 m ρ c (Proc.devRef .tc b) := (keep11 m ρ c hb).trans (late_at11 m ρ c hb)
theorem late_at13 (c : Dev nD) {b : Ref sig .tc} (hb : IsLate b) :
    W13 m ρ c (Proc.devRef .tc b) = W3 m ρ c (Proc.devRef .tc b) := (keep12 m ρ c hb).trans (late_at12 m ρ c hb)
theorem late_at14 (c : Dev nD) {b : Ref sig .tc} (hb : IsLate b) :
    W14 m ρ c (Proc.devRef .tc b) = W3 m ρ c (Proc.devRef .tc b) := (keep13 m ρ c hb).trans (late_at13 m ρ c hb)
theorem late_at15 (c : Dev nD) {b : Ref sig .tc} (hb : IsLate b) :
    W15 m ρ c (Proc.devRef .tc b) = W3 m ρ c (Proc.devRef .tc b) := (keep14 m ρ c hb).trans (late_at14 m ρ c hb)
theorem late_at16 (c : Dev nD) {b : Ref sig .tc} (hb : IsLate b) :
    W16 m ρ c (Proc.devRef .tc b) = W3 m ρ c (Proc.devRef .tc b) := (keep15 m ρ c hb).trans (late_at15 m ρ c hb)
theorem late_at17 (c : Dev nD) {b : Ref sig .tc} (hb : IsLate b) :
    W17 m ρ c (Proc.devRef .tc b) = W3 m ρ c (Proc.devRef .tc b) := (keep16 m ρ c hb).trans (late_at16 m ρ c hb)
theorem late_at18 (c : Dev nD) {b : Ref sig .tc} (hb : IsLate b) :
    W18 m ρ c (Proc.devRef .tc b) = W3 m ρ c (Proc.devRef .tc b) := (keep17 m ρ c hb).trans (late_at17 m ρ c hb)
theorem late_at19 (c : Dev nD) {b : Ref sig .tc} (hb : IsLate b) :
    W19 m ρ c (Proc.devRef .tc b) = W3 m ρ c (Proc.devRef .tc b) := (keep18 m ρ c hb).trans (late_at18 m ρ c hb)

end Cert.KernelIdeal.Carry

end
-- ==== Proof.Edges.lean ====
/-
  The three edge vectors at the first region's entry.

  Before its first region the kernel's @main computes, with host operations only, for each of the 850000 edges (the
  800000 given ones followed by one self loop per node) its source `src`, its target `dst`, and the weight
  `norm = dinv[src] * dinv[dst]`, where `deg` counts the edges into a node and `dinv = deg > 0 ? rsqrt deg : 0`.
  The reference computes the same three vectors with the same operations in the same order, so what the kernel's
  buffers hold at the first region's entry are the reference's stages of the edge-index argument: the two sides are
  the same composition of operations, compared as terms and never opened.
-/
import proofs.«138359_j6201932775762_1_alg».proof.Proof.Gen.KernelIdeal.Frame
import proofs.«138359_j6201932775762_1_alg».proof.Proof.RefRead

set_option maxRecDepth 16384

noncomputable section

namespace Cert.KernelIdeal.Edges

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the degree and its inverse square root (the first two stretches) -/

/-- Each edge's source node. -/
theorem src_at2 (c : Dev nD) :
    W2 m ρ c (Proc.devRef .tc main_v3)
      = Cert.ReferenceIdeal.ReadP.val_main_v3 (F := F) (m ((c : Thread nD τ).loc main_arg1)) := by
  show StableHlo.after hostOps0_1 (StableHlo.after hostOps0 (W0 m ρ c)) (Proc.devRef .tc main_v3) = _
  after_results_simp
  rfl

/-- Each edge's target node. -/
theorem dst_at2 (c : Dev nD) :
    W2 m ρ c (Proc.devRef .tc main_v6)
      = Cert.ReferenceIdeal.ReadP.val_main_v6 (F := F) (m ((c : Thread nD τ).loc main_arg1)) := by
  show StableHlo.after hostOps0_1 (StableHlo.after hostOps0 (W0 m ρ c)) (Proc.devRef .tc main_v6) = _
  after_results_simp
  rfl

set_option maxRecDepth 131072 in
/-- Each node's `dinv`: the inverse square root of its degree where the degree is positive, zero elsewhere. -/
theorem dinv_at2 (c : Dev nD) :
    W2 m ρ c (Proc.devRef .tc main_v14)
      = Cert.ReferenceIdeal.ReadP.val_main_v14 (F := F) (m ((c : Thread nD τ).loc main_arg1)) := by
  show StableHlo.after hostOps0_1 (StableHlo.after hostOps0 (W0 m ρ c)) (Proc.devRef .tc main_v14) = _
  after_results_simp
  rfl

/-! ## At the first region's entry -/

/-- Each edge's source node. -/
theorem src_at3 (c : Dev nD) :
    W3 m ρ c (Proc.devRef .tc main_v3)
      = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

/-- Each edge's target node. -/
theorem dst_at3 (c : Dev nD) :
    W3 m ρ c (Proc.devRef .tc main_v6)
      = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  after_results_simp
  rfl

set_option maxRecDepth 131072 in
/-- The last stretch before the first region, from any contents holding `dinv`, `src` and `dst`: it gathers `dinv` at
    the edges' sources and at their targets (a negative index wrapped by the number of nodes first) and multiplies. -/
theorem norm_of (W : Valuation τ sig (Elt F)) (x1 : (⟨Cert.ReferenceIdeal.S2x800000, .i32⟩ : BufTy).Contents (Elt F))
    (hd : W (Proc.devRef .tc main_v14) = Cert.ReferenceIdeal.ReadP.val_main_v14 (F := F) x1)
    (hs : W (Proc.devRef .tc main_v3) = Cert.ReferenceIdeal.ReadP.val_main_v3 (F := F) x1)
    (ht : W (Proc.devRef .tc main_v6) = Cert.ReferenceIdeal.ReadP.val_main_v6 (F := F) x1) :
    StableHlo.after hostOps0_2 W (Proc.devRef .tc main_v29) = Cert.ReferenceIdeal.ReadP.val_main_v29 (F := F) x1 := by
  after_results_simp
  rw [hd, hs, ht]
  rfl

/-- Each edge's weight: the product of the inverse square roots of its two ends' degrees. -/
theorem norm_at3 (c : Dev nD) :
    W3 m ρ c (Proc.devRef .tc main_v29)
      = Cert.ReferenceIdeal.ReadP.val_main_v29 (F := F) (m ((c : Thread nD τ).loc main_arg1)) :=
  norm_of (W2 m ρ c) _ (dinv_at2 m ρ c) (src_at2 m ρ c) (dst_at2 m ρ c)

end Cert.KernelIdeal.Edges

end
-- ==== Proof.RowReshape.lean ====
/-
  A bias vector as a one-row matrix.

  The kernel's program reshapes a bias of 128 entries to one row of 128 lanes; the reference broadcasts the same
  vector into a one-row matrix along its lane axis. Both put entry `j` of the vector at row 0, lane `j`: they are
  one array.
-/
import proofs.«138359_j6201932775762_1_alg».proof.KernelIdeal
import proofs.«138359_j6201932775762_1_alg».proof.ReferenceIdeal
import Idealize.ShloMosaic.Lib.Pipeline.Value

noncomputable section

namespace Cert.KernelIdeal.RowReshape

open Idealize.ShloMosaic

/-- Reshaping `[128]` to `[1, 128]` and broadcasting `[128]` into `[1, 128]` along the second axis are the same array:
    at `(0, j)` each is the vector's entry `j`. -/
theorem reshape_row_eq_broadcast {α : Type} (x : Cert.KernelIdeal.S128.Idx → α)
    (h : Cert.KernelIdeal.S128.ShapeCasts Cert.KernelIdeal.S1x128)
    (hb : Cert.ReferenceIdeal.S128.BroadcastsInDim Cert.ReferenceIdeal.S1x128 (![1] : Fin 1 → Fin Cert.ReferenceIdeal.S1x128.rank)) :
    shapeCast Cert.KernelIdeal.S1x128 x h = broadcastInDim Cert.ReferenceIdeal.S1x128 ![1] hb x := by
  funext i
  have e1 : shapeCast Cert.KernelIdeal.S1x128 x h i = x (fun a => i a.succ) :=
    shapeCast_addUnit_apply (![128] : Fin 1 → Nat) x h i
  have e2 : broadcastInDim Cert.ReferenceIdeal.S1x128 ![1] hb x i = x (fun a => i a.succ) :=
    broadcastInDim_apply _ hb x i (fun a => i a.succ) (fun a => match a with
      | ⟨0, _⟩ => by show (i 1).val = if (128 : Nat) = 1 then 0 else (i 1).val; rw [if_neg (by decide)])
  exact e1.trans e2.symm

end Cert.KernelIdeal.RowReshape

end
-- ==== Proof.MatmulBlock.lean ====
/-
  A matrix product, block by block.

  The kernel multiplies a block of 5000 rows of a [50000, 128] array by a whole [128, 128] array, into a zero
  accumulator; the reference multiplies the whole [50000, 128] array by the same [128, 128] array. At the ideal
  values (extended reals, every operation exact, a change of format the identity) both are, entry by entry, the sum
  over the 128 contraction coordinates of the products: entry (r, j) of the block product reads row r of the block
  and column j of the right operand, entry (i, j) of the whole product reads row i of the array and column j. So
  block t of the whole product, row r, is the block product of block t at row r: an output row depends on its own
  row of the left operand only, and no sum is regrouped.
-/
import proofs.«138359_j6201932775762_1_alg».proof.KernelIdeal
import proofs.«138359_j6201932775762_1_alg».proof.ReferenceIdeal
import Idealize.ShloMosaic.Lib.ValueIdx
import Idealize.ShloMosaic.PureOps.Ideal.Laws

noncomputable section

namespace Cert.KernelIdeal.RegionValue

open Cert.KernelIdeal Idealize.ShloMosaic Idealize.ShloMosaic.TcCoe Idealize.SL.Sem
open Idealize.ShloMosaic.ValueIdx

variable [Cert.KernelIdeal.Facts₀] [Cert.ReferenceIdeal.Facts₀]

/-! ## The block product's operand indices -/

/-- The left operand of the block product is read at the output's row … -/
theorem kdot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch from List.not_mem_nil), dif_pos (show (0 : Fin S5000x128.rank) ∈ dot_S5000x128_S128x128_S5000x128_1_0_0_1_n_n.lhsNonContracting from List.mem_singleton_self _)]
  rfl
/-- … and the contraction coordinate; -/
theorem kdot_lhs_1 (i : S5000x128.Idx) (q : dot_S5000x128_S128x128_S5000x128_1_0_0_1_n_n.contr.Idx) :
    (dot_S5000x128_S128x128_S5000x128_1_0_0_1_n_n.lhsIdx i q 1).val = (q ⟨0, Nat.one_pos⟩).val :=
  dot_S5000x128_S128x128_S5000x128_1_0_0_1_n_n.lhsIdx_val_of_single rfl i q
/-- the right operand at the contraction coordinate … -/
theorem kdot_rhs_0 (i : S5000x128.Idx) (q : dot_S5000x128_S128x128_S5000x128_1_0_0_1_n_n.contr.Idx) :
    (dot_S5000x128_S128x128_S5000x128_1_0_0_1_n_n.rhsIdx i q 0).val = (q ⟨0, Nat.one_pos⟩).val :=
  dot_S5000x128_S128x128_S5000x128_1_0_0_1_n_n.rhsIdx_val_of_single rfl i q
/-- … and the output's column. -/
theorem kdot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch from List.not_mem_nil), dif_pos (show (1 : Fin S128x128.rank) ∈ dot_S5000x128_S128x128_S5000x128_1_0_0_1_n_n.rhsNonContracting from List.mem_singleton_self _)]
  rfl

/-- THE BLOCK PRODUCT AT AN ENTRY: the kernel's matmul of the two loaded blocks, each narrowed to bf16 (the identity
    on extended reals), into the zero splat, at row `r` and column `j`, is the sum over `k` of the left block at
    `(r, k)` times the right block at `(k, j)`. -/
theorem block_matmul_apply (x : Vec Ideal S5000x128 .f32) (w : Vec Ideal S128x128 .f32) (hb : FTy.bits .bf16 < FTy.bits .f32)
    (r : Fin 5000) (j : Fin 128) :
    (matmul dot_S5000x128_S128x128_S5000x128_1_0_0_1_n_n none (truncf .bf16 x hb : FVec Ideal S5000x128 .bf16) (truncf .bf16 w hb : FVec Ideal S128x128 .bf16)
        (constant S5000x128 .f32 0x00000000#32) : FVec Ideal S5000x128 .f32) (ix2 r j)
      = ∑ k : Fin 128, x (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact kdot_lhs_0 _ _
    | ⟨1, _⟩ => exact (kdot_lhs_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (kdot_rhs_0 _ _).trans hk
    | ⟨1, _⟩ => exact kdot_rhs_1 _ _)
  rw [el, er, truncf_apply, truncf_apply]

/-! ## The whole product's operand indices -/

theorem rdot_lhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch from List.not_mem_nil), dif_pos (show (0 : Fin Cert.ReferenceIdeal.S50000x128.rank) ∈ Cert.ReferenceIdeal.dot_S50000x128_S128x128_S50000x128_1_0_0_1_n_n.lhsNonContracting from List.mem_singleton_self _)]
  rfl
theorem rdot_lhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, Nat.one_pos⟩).val :=
  Cert.ReferenceIdeal.dot_S50000x128_S128x128_S50000x128_1_0_0_1_n_n.lhsIdx_val_of_single rfl i q
theorem rdot_rhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, Nat.one_pos⟩).val :=
  Cert.ReferenceIdeal.dot_S50000x128_S128x128_S50000x128_1_0_0_1_n_n.rhsIdx_val_of_single rfl i q
theorem rdot_rhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch from List.not_mem_nil), dif_pos (show (1 : Fin Cert.ReferenceIdeal.S128x128.rank) ∈ Cert.ReferenceIdeal.dot_S50000x128_S128x128_S50000x128_1_0_0_1_n_n.rhsNonContracting from List.mem_singleton_self _)]
  rfl

/-- THE WHOLE PRODUCT AT AN ENTRY: the host's `dot_general` of the [50000, 128] array and the [128, 128] array at row
    `i` and column `j` is the sum over `k` of the left array at `(i, k)` times the right array at `(k, j)`. -/
theorem whole_dot_apply (X : Cert.ReferenceIdeal.S50000x128.Idx → EReal) (W : Cert.ReferenceIdeal.S128x128.Idx → EReal)
    (i : Fin 50000) (j : Fin 128) :
    (Host.dotGeneral (F := Ideal) (φ₁ := .f32) (φ₂ := .f32) Cert.ReferenceIdeal.dot_S50000x128_S128x128_S50000x128_1_0_0_1_n_n none X W) (ix2 i j)
      = ∑ k : Fin 128, X (ix2 i k) * W (ix2 k j) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 i j) ((contrEquiv1 Cert.ReferenceIdeal.dot_S50000x128_S128x128_S50000x128_1_0_0_1_n_n 128 rfl rfl).symm k) = ix2 i k := funext fun a => Fin.ext (by
    match a with
    | ⟨0, _⟩ => exact rdot_lhs_0 _ _
    | ⟨1, _⟩ => exact (rdot_lhs_1 _ _).trans hk)
  have er : Cert.ReferenceIdeal.dot_S50000x128_S128x128_S50000x128_1_0_0_1_n_n.rhsIdx (ix2 i j) ((contrEquiv1 Cert.ReferenceIdeal.dot_S50000x128_S128x128_S50000x128_1_0_0_1_n_n 128 rfl rfl).symm k) = ix2 k j := funext fun a => Fin.ext (by
    match a with
    | ⟨0, _⟩ => exact (rdot_rhs_0 _ _).trans hk
    | ⟨1, _⟩ => exact rdot_rhs_1 _ _)
  rw [el, er]

/-! ## A block of the whole product -/

/-- BLOCK `t` OF THE WHOLE PRODUCT IS THE BLOCK PRODUCT OF BLOCK `t`. Let `x` be a block of rows of `X` and `w` the
    array `W`: entry `z` of the block sits at entry `i` of the array, which is to say (`hx`) row `z 0` of `x` is row
    `i 0` of `X`, and (`hw`) column `z 1` of `w` is column `i 1` of `W`. Then the block product at `z` is the whole
    product at `i`: the same 128 products, summed in the same order. -/
theorem block_matmul_eq_whole_dot (X : Cert.ReferenceIdeal.S50000x128.Idx → EReal) (W : Cert.ReferenceIdeal.S128x128.Idx → EReal)
    (x : Vec Ideal S5000x128 .f32) (w : Vec Ideal S128x128 .f32) (hb : FTy.bits .bf16 < FTy.bits .f32)
    (z : S5000x128.Idx) (i : Cert.ReferenceIdeal.S50000x128.Idx)
    (hx : ∀ k : Fin 128, x (ix2 (⟨(z 0).val, idx2_lt0 z⟩ : Fin 5000) k) = X (ix2 (⟨(i 0).val, idx2_lt0 i⟩ : Fin 50000) k))
    (hw : ∀ k : Fin 128, w (ix2 k (⟨(z 1).val, idx2_lt1 z⟩ : Fin 128)) = W (ix2 k (⟨(i 1).val, idx2_lt1 i⟩ : Fin 128))) :
    (matmul dot_S5000x128_S128x128_S5000x128_1_0_0_1_n_n none (truncf .bf16 x hb : FVec Ideal S5000x128 .bf16) (truncf .bf16 w hb : FVec Ideal S128x128 .bf16)
        (constant S5000x128 .f32 0x00000000#32) : FVec Ideal S5000x128 .f32) z
      = (Host.dotGeneral (F := Ideal) (φ₁ := .f32) (φ₂ := .f32) Cert.ReferenceIdeal.dot_S50000x128_S128x128_S50000x128_1_0_0_1_n_n none X W) i := by
  obtain ⟨r, j, rfl⟩ : ∃ (r : Fin 5000) (j : Fin 128), z = ix2 r j := ⟨z 0, z 1, eq_ix2 z⟩
  obtain ⟨i0, j0, rfl⟩ : ∃ (i0 : Fin 50000) (j0 : Fin 128), i = ix2 i0 j0 := ⟨i 0, i 1, eq_ix2 i⟩
  rw [block_matmul_apply, whole_dot_apply]
  exact Finset.sum_congr rfl fun k _ => congrArg₂ (· * ·) (hx k) (hw k)

end Cert.KernelIdeal.RegionValue

end
-- ==== Proof.RegionMM0.lean ====
/-
  Region 0: a matrix product computed block by block.

  The region walks a grid of 10 points. At point t it loads rows 5000·t … 5000·t + 4999 of the [50000, 128] array
  under its first window and the whole [128, 128] array under its second, multiplies them into a zero accumulator,
  and writes the [5000, 128] product back as rows 5000·t … of the array under its third window. Entry (r, j) of
  that product reads row r of the block — row 5000·t + r of the array — and column j of the right operand, so the
  block written at point t is block t of the product of the two WHOLE arrays; the ten blocks tile the output
  array, which therefore ends holding that whole product.
-/
import proofs.«138359_j6201932775762_1_alg».proof.Proof.Gen.KernelIdeal.Frame
import proofs.«138359_j6201932775762_1_alg».proof.Proof.MatmulBlock
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable [Cert.ReferenceIdeal.Facts₀]
variable (V : (c : Dev nD) → (b : Ref sig .tc) → Buf (Elt Ideal) ((c : Thread nD τ).loc b))

/-- The body's accesses start at the origin of their buffers. -/
theorem origin0 : (![0, 0] : Fin 2 → Nat) = fun _ => 0 := funext fun a => by fin_cases a <;> rfl

/-- The body's payload is the block product of its two loaded blocks (where the body first casts the left block to its
    own shape, the cast changes nothing). -/
theorem pay0_eq (x0 : Vec Ideal S5000x128 .f32) (x1 : Vec Ideal S128x128 .f32) :
    k0_pay1 x0 x1 = matmul dot_S5000x128_S128x128_S5000x128_1_0_0_1_n_n none (truncf .bf16 x0 bitsLt_bf16_f32 : FVec Ideal S5000x128 .bf16)
      (truncf .bf16 x1 bitsLt_bf16_f32 : FVec Ideal S128x128 .bf16) (constant S5000x128 .f32 0x00000000#32) := by
  unfold k0_pay1
  first | rfl | rw [shapeCast_self]

/-- The index maps, decided over the grid: the left window's block of rows is the output window's, on the lane axis
    every window is at block 0, the right window stays at block (0, 0), and the output's row block is below 10. -/
theorem idx_facts0 : ∀ t : Fin cfg0.N,
      win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks of the output is some point's. -/
theorem idx_onto0 : ∀ q : Fin 10, ∃ t : Fin cfg0.N, win0_2.index t = ![q.val, 0] :=
  (by decide +kernel : ∀ q : Fin 10, ∃ t : Fin grid0.N, win0_2.index t = ![q.val, 0])

set_option maxHeartbeats 1000000 in
/-- WHAT POINT `t` WRITES BACK is block `t` of the product of the two whole arrays the region finds under its input
    windows: row `r` of the block product reads row `r` of the left block, which is row `5000·t + r` of the left
    array, and the right block is the right array. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S50000x128_S128x128_S50000x128_1_0_0_1_n_n none
        (V c (Pipeline.arrRef spec0 0)) (V c (Pipeline.arrRef spec0 1))) := by
  show (cfg0.win 2).cut (grid0.coords t) ((dat0 V c).after 2 t) = _
  rw [after0_2]
  unfold out0_2
  rw [View.canon_unit_zero origin0]
  simp only [View.ld_unit_zero (S := S5000x128) origin0, View.ld_unit_zero (S := S128x128) origin0]
  rw [pay0_eq]
  obtain ⟨e0, e1, e2, e3, e4, e5⟩ := idx_facts0 t
  funext y
  refine block_matmul_eq_whole_dot (V c (Pipeline.arrRef spec0 0)) (V c (Pipeline.arrRef spec0 1))
    (iblk0 V c 0 t) (iblk0 V c 1 t) bitsLt_bf16_f32 ((cfg0.win 2).xinj (grid0.coords t) y)
    (((cfg0.win 2).blk t).view.emb y) (fun k => ?_) (fun k => ?_)
  · show V c (Pipeline.arrRef spec0 0) (((cfg0.win 0).blk t).view.emb (ix2 (⟨(y 0).val, _⟩ : Fin 5000) k))
      = V c (Pipeline.arrRef spec0 0) (ix2 (⟨((((cfg0.win 2).blk t).view.emb y) 0).val, _⟩ : Fin 50000) k)
    refine congrArg _ (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  · show V c (Pipeline.arrRef spec0 1) (((cfg0.win 1).blk t).view.emb (ix2 k (⟨(y 1).val, _⟩ : Fin 128)))
      = V c (Pipeline.arrRef spec0 1) (ix2 k (⟨((((cfg0.win 2).blk t).view.emb y) 1).val, _⟩ : Fin 128))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten blocks tile the output array: row `i` is in the block of the point whose row block is `i / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY AFTER THE REGION is the product of the two whole arrays the region finds under its input
    windows. -/
theorem mm0 (c : Dev nD) :
    (dat0 (F := Ideal) V c).arrAt 2 cfg0.N
      = Host.dotGeneral (F := Ideal) (φ₁ := .f32) (φ₂ := .f32) Cert.ReferenceIdeal.dot_S50000x128_S128x128_S50000x128_1_0_0_1_n_n none (V c (Pipeline.arrRef spec0 0)) (V c (Pipeline.arrRef spec0 1)) :=
  (dat0 V c).arrAt_eq_of_cover 2 _ (fun t _ => flushed0_eq V c t) cover0

end Cert.KernelIdeal.RegionValue

end
-- ==== Proof.BiasBlock.lean ====
/-
  The bias-and-rectifier regions, at one element.

  Each such region's body loads a block `a` of 5000 rows by 128 lanes and the one row `b` of 128 lanes, adds `b` to
  every row of `a` and takes the maximum with a splat scalar `z`:  out (r, j) = max (a (r, j) + b (0, j)) z.
  The reference computes the same expression on the whole 50000 by 128 array with host operations:
  A + (b broadcast along the rows), then the maximum with the broadcast scalar constant.  Read at an index the
  two agree termwise; the float operations are never opened (the same `+`, the same `max`, the same word for `z`).
-/
import proofs.«138359_j6201932775762_1_alg».proof.KernelIdeal
import proofs.«138359_j6201932775762_1_alg».proof.ReferenceIdeal
import Idealize.ShloMosaic.Lib.Pipeline.Value
import Idealize.ShloMosaic.Lib.ValueIdx

noncomputable section

namespace Cert.KernelIdeal.RegionValue

open Cert.KernelIdeal Idealize.ShloMosaic Idealize.ShloMosaic.TcCoe Idealize.SL.Sem
open Idealize.ShloMosaic.ValueIdx

/-- THE BODY AT AN ELEMENT.  Row `p`, lane `q` of what the body stores: the loaded block's element plus the bias
    row's lane `q`, then the maximum with the splat scalar.  The two shape casts are to the operands' own shapes (the
    identity); the vector broadcast of the one-row operand reads row `0` at the same lane. -/
theorem biasRelu_body_apply (h0 : S5000x128.ShapeCasts S5000x128) (h1 : S1x128.ShapeCasts S1x128)
    (hb : S1x128.Broadcasts S5000x128) (z : Ideal .f32)
    (x0 : Vec Ideal S5000x128 .f32) (x1 : Vec Ideal S1x128 .f32) (p : Fin 5000) (q : Fin 128) :
    maximumf (addf (shapeCast S5000x128 x0 h0) (broadcastTo S5000x128 (shapeCast S1x128 x1 h1) hb))
        (broadcast S5000x128 z) (ix2 p q)
      = max (x0 (ix2 p q) + x1 (ix2 (0 : Fin 1) q)) z := by
  rw [shapeCast_self, shapeCast_self, maximumf_apply, addf_apply, broadcast_apply]
  rw [broadcastTo_apply x1 hb (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])]

/-- THE HOST EXPRESSION AT AN ELEMENT.  Row `i`, lane `q` of `max (A + broadcast B) (broadcast z)`: the broadcast of
    the one-row array along the rows reads its row `0` at lane `q`, the broadcast of the scalar constant reads the
    scalar. -/
theorem biasRelu_host_apply
    (hB : Cert.ReferenceIdeal.S1x128.BroadcastsInDim Cert.ReferenceIdeal.S50000x128 (![0, 1] : Fin 2 → Fin Cert.ReferenceIdeal.S50000x128.rank))
    (hZ : Cert.ReferenceIdeal.S_.BroadcastsInDim Cert.ReferenceIdeal.S50000x128 (![] : Fin 0 → Fin Cert.ReferenceIdeal.S50000x128.rank))
    (w : BitVec 32)
    (A : Vec Ideal Cert.ReferenceIdeal.S50000x128 .f32) (B : Vec Ideal Cert.ReferenceIdeal.S1x128 .f32)
    (i : Fin 50000) (q : Fin 128) :
    maximumf (addf A (broadcastInDim Cert.ReferenceIdeal.S50000x128 ![0, 1] hB B))
        (broadcastInDim Cert.ReferenceIdeal.S50000x128 ![] hZ (constant (F := Ideal) Cert.ReferenceIdeal.S_ .f32 w)) (ix2 i q)
      = max (A (ix2 i q) + B (ix2 (0 : Fin 1) q)) (Ideal.ofBits .f32 w) := by
  rw [maximumf_apply, addf_apply]
  rw [broadcastInDim_apply _ hB B (ix2 i q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])]
  rw [broadcastInDim_apply _ hZ (constant (F := Ideal) Cert.ReferenceIdeal.S_ .f32 w) (ix2 i q) ix0 (fun a => a.elim0)]
  rfl

end Cert.KernelIdeal.RegionValue

end
-- ==== Proof.RegionBR1.lean ====
/-
  Region 1 (bias and rectifier), as one whole-array operation.

  The region walks a grid of 10 points.  At point `t` the body sees rows 5000·t … 5000·t + 4999 of the 50000 by 128
  input, and the whole one-row bias; it writes back the same rows of the output.  Its arithmetic is pointwise, so what
  point `t` writes back is block `t` of ONE function of the two input arrays,
      out (i, j) = max (A (i, j) + b (0, j)) 0,
  which is the host expression `maximumf (addf A (broadcast b)) (broadcast 0)`.  The ten blocks tile the output, so
  after the last write-back the output array IS that expression.  Nothing here but the index arithmetic of the blocks:
  row `r` of block `t` is row 5000·t + r of the array, every lane is kept, and the bias is always read at row 0.
-/
import proofs.«138359_j6201932775762_1_alg».proof.Proof.Gen.KernelIdeal.Frame
import proofs.«138359_j6201932775762_1_alg».proof.Proof.Gen.ReferenceIdeal
import proofs.«138359_j6201932775762_1_alg».proof.Proof.BiasBlock

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of the body's whole-buffer accesses, as the constant function. -/
theorem hz1 : (![0, 0] : Fin 2 → Nat) = fun _ => 0 := funext fun a => by fin_cases a <;> rfl

/-- The region's output as one function of its two input arrays: the reference's own operations. -/
abbrev G1 (A : Vec Ideal Cert.ReferenceIdeal.S50000x128 .f32) (B : Vec Ideal Cert.ReferenceIdeal.S1x128 .f32) :
    FVec Ideal Cert.ReferenceIdeal.S50000x128 .f32 :=
  maximumf (F := Ideal) (φ := .f32)
    (addf (F := Ideal) (φ := .f32) A
      (broadcastInDim Cert.ReferenceIdeal.S50000x128 ![0, 1] Cert.ReferenceIdeal.Gen.bcast_S1x128_S50000x128_0_1 B))
    (broadcastInDim Cert.ReferenceIdeal.S50000x128 ![] Cert.ReferenceIdeal.Gen.bcast_S_S50000x128
      (constant (F := Ideal) Cert.ReferenceIdeal.S_ .f32 0x00000000#32))

/-- The body's payload is the bias-and-rectifier expression of its two loaded blocks. -/
theorem pay1_eq (x0 : Vec Ideal S5000x128 .f32) (x1 : Vec Ideal S1x128 .f32) :
    k1_pay1 (F := Ideal) x0 x1
      = maximumf (addf (shapeCast S5000x128 x0 shapeCasts_S5000x128_S5000x128)
            (broadcastTo S5000x128 (shapeCast S1x128 x1 shapeCasts_S1x128_S1x128) broadcasts_S1x128_S5000x128))
          (broadcast S5000x128 (Scalar.ofBits (F := Ideal) .f32 0x00000000#32)) := rfl

/-- The printed index maps, decided once over the grid: the input and output blocks sit at the same block row (the
    point's number), on the one block column; the bias window is always its whole array. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every block row of the output is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- ONE ELEMENT OF A BLOCK, over variables: if the loaded block `x0` at (p, q) is the array `A` at (i, q) and the loaded
    bias `x1` is `B`, the payload at (p, q) is the whole-array expression at (i, q). -/
theorem pay1_apply (A : Vec Ideal Cert.ReferenceIdeal.S50000x128 .f32) (B : Vec Ideal Cert.ReferenceIdeal.S1x128 .f32)
    (x0 : Vec Ideal S5000x128 .f32) (x1 : Vec Ideal S1x128 .f32) (i : Fin 50000) (p : Fin 5000) (q : Fin 128)
    (h0 : x0 (ix2 p q) = A (ix2 i q)) (h1 : x1 (ix2 (0 : Fin 1) q) = B (ix2 (0 : Fin 1) q)) :
    k1_pay1 (F := Ideal) x0 x1 (ix2 p q) = G1 A B (ix2 i q) := by
  rw [pay1_eq, biasRelu_body_apply, h0, h1]
  exact (biasRelu_host_apply _ _ _ A B i q).symm

/-- WHAT POINT `t` WRITES BACK is block `t` of `G1` of the two input arrays as the region finds them. -/
theorem flushed1_eq (c : Dev nD) (t : Fin cfg1.N) :
    (dat1 (F := Ideal) V c).flushed 2 t
      = ((cfg1.win 2).blk t).view.read (Elt Ideal) (G1 (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero hz1]
  simp only [View.ld_unit_zero (S := S5000x128) hz1, View.ld_unit_zero (S := S1x128) hz1]
  obtain ⟨e0, e1, e2, e3, e4, e5⟩ := idx_facts1 t
  funext j
  obtain ⟨p, q, rfl⟩ : ∃ (p : Fin 5000) (q : Fin 128), j = ix2 p q := ⟨j 0, j 1, eq_ix2 j⟩
  have hp : p.val < 5000 := p.isLt
  -- the row of the array under row `p` of block `t`
  refine (pay1_apply (V c (Pipeline.arrRef spec1 0)) (V c (Pipeline.arrRef spec1 1)) (iblk1 V c 0 t) (iblk1 V c 1 t)
    ⟨win1_2.index t (0 : Fin 2) * 5000 + p.val, by omega⟩ p q ?_ ?_).trans ?_
  · -- the input block's element: same block row as the output's, the one block column
    show V c (Pipeline.arrRef spec1 0) (((cfg1.win 0).blk t).view.emb (ix2 p q)) = _
    refine congrArg _ (funext fun a => Fin.ext ?_)
    match a with
    | ⟨0, _⟩ => show win1_0.index t (0 : Fin 2) * 5000 + 1 * p.val = win1_2.index t (0 : Fin 2) * 5000 + p.val; omega
    | ⟨1, _⟩ => show win1_0.index t (1 : Fin 2) * 128 + 1 * q.val = q.val; omega
  · -- the bias block is the whole one-row array
    show V c (Pipeline.arrRef spec1 1) (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · -- the output block's element sits at the same place
    show _ = G1 (V c (Pipeline.arrRef spec1 0)) (V c (Pipeline.arrRef spec1 1)) (((cfg1.win 2).blk t).view.emb (ix2 p q))
    refine congrArg _ (funext fun a => Fin.ext ?_)
    match a with
    | ⟨0, _⟩ => show win1_2.index t (0 : Fin 2) * 5000 + p.val = win1_2.index t (0 : Fin 2) * 5000 + 1 * p.val; omega
    | ⟨1, _⟩ => show q.val = win1_2.index t (1 : Fin 2) * 128 + 1 * q.val; omega

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- THE BLOCKS TILE THE OUTPUT: row `r` is in the block of the point whose block row is `r / 5000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the region: the bias-and-rectifier expression of the two input arrays as the region finds
    them, as one whole-array host operation. -/
theorem br1 (c : Dev nD) :
    (dat1 (F := Ideal) V c).arrAt 2 cfg1.N
      = maximumf (F := Ideal) (φ := .f32)
          (addf (F := Ideal) (φ := .f32) (V c (Pipeline.arrRef spec1 0))
            (broadcastInDim Cert.ReferenceIdeal.S50000x128 ![0, 1] Cert.ReferenceIdeal.Gen.bcast_S1x128_S50000x128_0_1
              (V c (Pipeline.arrRef spec1 1))))
          (broadcastInDim Cert.ReferenceIdeal.S50000x128 ![] Cert.ReferenceIdeal.Gen.bcast_S_S50000x128
            (constant (F := Ideal) Cert.ReferenceIdeal.S_ .f32 0x00000000#32)) :=
  (dat1 (F := Ideal) V c).arrAt_eq_of_cover 2 (G1 (V c (Pipeline.arrRef spec1 0)) (V c (Pipeline.arrRef spec1 1)))
    (fun t _ => flushed1_eq V c t) (cover1)

end Cert.KernelIdeal.RegionValue

end
-- ==== Proof.Layer1.lean ====
/-
  Graph-convolution layer 1 of the idealized kernel, boundary by boundary.

  The layer's input `h` is the node features. A pipelined region multiplies it by the layer's weight
  matrix; the host operations after it gather the product's rows at the edges' sources, scale them by the edges'
  weights and add them up at the edges' targets, and reshape the bias to one row; a second region adds the bias to
  every row and takes the maximum with zero. The regions' output arrays are whole-array host operations of their input
  arrays (the matrix product; the sum with the broadcast row, then the maximum), and the host operations in between are
  the reference's own, so each buffer the layer writes holds the reference's stage of the same name: the two sides are
  the same composition of operations of the same inputs, compared as terms and never opened.
-/
import proofs.«138359_j6201932775762_1_alg».proof.Proof.Gen.KernelIdeal.Frame
import proofs.«138359_j6201932775762_1_alg».proof.Proof.RefRead
import proofs.«138359_j6201932775762_1_alg».proof.Proof.Carry
import proofs.«138359_j6201932775762_1_alg».proof.Proof.Edges
import proofs.«138359_j6201932775762_1_alg».proof.Proof.RowReshape
import proofs.«138359_j6201932775762_1_alg».proof.Proof.RegionMM0
import proofs.«138359_j6201932775762_1_alg».proof.Proof.RegionBR1

set_option maxRecDepth 16384
-- the notations below mention a projection, which the eager check of notations does not handle
set_option quotPrecheck false

noncomputable section

namespace Cert.KernelIdeal.Layer1

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

-- the launch contents of the argument arrays
local notation "X0" => m ((c : Thread nD τ).loc main_arg0)
local notation "X1" => m ((c : Thread nD τ).loc main_arg1)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)

/-- The product with the weight matrix: the first region's output array. -/
theorem product :
    W4 m ρ c (Proc.devRef .tc main_v30) = val_main_v30 (F := Ideal) X0 X3 :=
  (W4_arr m ρ c 2).trans ((RegionValue.mm0 (V3 m ρ) c).trans (by
    have h0 : V3 m ρ c (Pipeline.arrRef spec0 0) = X0 := Carry.param_at3 m ρ c (b := main_arg0) (by decide)
    have h1 : V3 m ρ c (Pipeline.arrRef spec0 1) = X3 := Carry.param_at3 m ρ c (b := main_arg3) (by decide)
    rw [h0, h1]
    rfl))

/-- The aggregate over the edges: rows gathered at the sources, scaled by the weights, summed at the targets. -/
theorem aggregate :
    W5 m ρ c (Proc.devRef .tc main_v43) = val_main_v43 (F := Ideal) X0 X1 X3 := by
  show StableHlo.after hostOps1 (W4 m ρ c) (Proc.devRef .tc main_v43) = _
  after_results_simp
  rw [product m ρ c, (Carry.late_at4 m ρ c (b := main_v3) (by decide)).trans (Edges.src_at3 m ρ c), (Carry.late_at4 m ρ c (b := main_v6) (by decide)).trans (Edges.dst_at3 m ρ c),
    (Carry.late_at4 m ρ c (b := main_v29) (by decide)).trans (Edges.norm_at3 m ρ c)]
  rfl

/-- The bias as one row. -/
theorem biasRow :
    W5 m ρ c (Proc.devRef .tc main_v44) = val_main_v44 (F := Ideal) X4 := by
  show StableHlo.after hostOps1 (W4 m ρ c) (Proc.devRef .tc main_v44) = _
  after_results_simp
  rw [(Carry.late_at4 m ρ c (b := main_arg4) (by decide)).trans (Carry.param_at3 m ρ c (b := main_arg4) (by decide))]
  exact RowReshape.reshape_row_eq_broadcast _ _ _

/-- The layer's output: the aggregate plus the bias row, rectified — the second region's output array. -/
theorem output :
    W6 m ρ c (Proc.devRef .tc main_v45) = val_main_v47 (F := Ideal) X0 X1 X3 X4 :=
  (W6_arr m ρ c 2).trans ((RegionValue.br1 (V5 m ρ) c).trans (by
    have h0 : V5 m ρ c (Pipeline.arrRef spec1 0) = val_main_v43 (F := Ideal) X0 X1 X3 := aggregate m ρ c
    have h1 : V5 m ρ c (Pipeline.arrRef spec1 1) = val_main_v44 (F := Ideal) X4 := biasRow m ρ c
    rw [h0, h1]
    rfl))

end Cert.KernelIdeal.Layer1

end
-- ==== Proof.RegionMM2.lean ====
/-
  Region 2: a matrix product computed block by block.

  The region walks a grid of 10 points. At point t it loads rows 5000·t … 5000·t + 4999 of the [50000, 128] array
  under its first window and the whole [128, 128] array under its second, multiplies them into a zero accumulator,
  and writes the [5000, 128] product back as rows 5000·t … of the array under its third window. Entry (r, j) of
  that product reads row r of the block — row 5000·t + r of the array — and column j of the right operand, so the
  block written at point t is block t of the product of the two WHOLE arrays; the ten blocks tile the output
  array, which therefore ends holding that whole product.
-/
import proofs.«138359_j6201932775762_1_alg».proof.Proof.Gen.KernelIdeal.Frame
import proofs.«138359_j6201932775762_1_alg».proof.Proof.MatmulBlock
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable [Cert.ReferenceIdeal.Facts₀]
variable (V : (c : Dev nD) → (b : Ref sig .tc) → Buf (Elt Ideal) ((c : Thread nD τ).loc b))

/-- The body's accesses start at the origin of their buffers. -/
theorem origin2 : (![0, 0] : Fin 2 → Nat) = fun _ => 0 := funext fun a => by fin_cases a <;> rfl

/-- The body's payload is the block product of its two loaded blocks (where the body first casts the left block to its
    own shape, the cast changes nothing). -/
theorem pay2_eq (x0 : Vec Ideal S5000x128 .f32) (x1 : Vec Ideal S128x128 .f32) :
    k2_pay1 x0 x1 = matmul dot_S5000x128_S128x128_S5000x128_1_0_0_1_n_n none (truncf .bf16 x0 bitsLt_bf16_f32 : FVec Ideal S5000x128 .bf16)
      (truncf .bf16 x1 bitsLt_bf16_f32 : FVec Ideal S128x128 .bf16) (constant S5000x128 .f32 0x00000000#32) := by
  unfold k2_pay1
  first | rfl | rw [shapeCast_self]

/-- The index maps, decided over the grid: the left window's block of rows is the output window's, on the lane axis
    every window is at block 0, the right window stays at block (0, 0), and the output's row block is below 10. -/
theorem idx_facts2 : ∀ t : Fin cfg2.N,
      win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks of the output is some point's. -/
theorem idx_onto2 : ∀ q : Fin 10, ∃ t : Fin cfg2.N, win2_2.index t = ![q.val, 0] :=
  (by decide +kernel : ∀ q : Fin 10, ∃ t : Fin grid2.N, win2_2.index t = ![q.val, 0])

set_option maxHeartbeats 1000000 in
/-- WHAT POINT `t` WRITES BACK is block `t` of the product of the two whole arrays the region finds under its input
    windows: row `r` of the block product reads row `r` of the left block, which is row `5000·t + r` of the left
    array, and the right block is the right array. -/
theorem flushed2_eq (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S50000x128_S128x128_S50000x128_1_0_0_1_n_n none
        (V c (Pipeline.arrRef spec2 0)) (V c (Pipeline.arrRef spec2 1))) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x128) origin2]
  rw [pay2_eq]
  obtain ⟨e0, e1, e2, e3, e4, e5⟩ := idx_facts2 t
  funext y
  refine block_matmul_eq_whole_dot (V c (Pipeline.arrRef spec2 0)) (V c (Pipeline.arrRef spec2 1))
    (iblk2 V c 0 t) (iblk2 V c 1 t) bitsLt_bf16_f32 ((cfg2.win 2).xinj (grid2.coords t) y)
    (((cfg2.win 2).blk t).view.emb y) (fun k => ?_) (fun k => ?_)
  · show V c (Pipeline.arrRef spec2 0) (((cfg2.win 0).blk t).view.emb (ix2 (⟨(y 0).val, _⟩ : Fin 5000) k))
      = V c (Pipeline.arrRef spec2 0) (ix2 (⟨((((cfg2.win 2).blk t).view.emb y) 0).val, _⟩ : Fin 50000) k)
    refine congrArg _ (funext fun a => Fin.ext ?_)
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 128 + 1 * k.val = k.val; omega
  · show V c (Pipeline.arrRef spec2 1) (((cfg2.win 1).blk t).view.emb (ix2 k (⟨(y 1).val, _⟩ : Fin 128)))
      = V c (Pipeline.arrRef spec2 1) (ix2 k (⟨((((cfg2.win 2).blk t).view.emb y) 1).val, _⟩ : Fin 128))
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (y 1).val = win2_2.index t (1 : Fin 2) * 128 + 1 * (y 1).val; omega

/-- An index of the output array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- The ten blocks tile the output array: row `i` is in the block of the point whose row block is `i / 5000`. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE OUTPUT ARRAY AFTER THE REGION is the product of the two whole arrays the region finds under its input
    windows. -/
theorem mm2 (c : Dev nD) :
    (dat2 (F := Ideal) V c).arrAt 2 cfg2.N
      = Host.dotGeneral (F := Ideal) (φ₁ := .f32) (φ₂ := .f32) Cert.ReferenceIdeal.dot_S50000x128_S128x128_S50000x128_1_0_0_1_n_n none (V c (Pipeline.arrRef spec2 0)) (V c (Pipeline.arrRef spec2 1)) :=
  (dat2 V c).arrAt_eq_of_cover 2 _ (fun t _ => flushed2_eq V c t) cover2

end Cert.KernelIdeal.RegionValue

end
-- ==== Proof.RegionBR3.lean ====
/-
  Region 3 (bias and rectifier), as one whole-array operation.

  The region walks a grid of 10 points.  At point `t` the body sees rows 5000·t … 5000·t + 4999 of the 50000 by 128
  input, and the whole one-row bias; it writes back the same rows of the output.  Its arithmetic is pointwise, so what
  point `t` writes back is block `t` of ONE function of the two input arrays,
      out (i, j) = max (A (i, j) + b (0, j)) 0,
  which is the host expression `maximumf (addf A (broadcast b)) (broadcast 0)`.  The ten blocks tile the output, so
  after the last write-back the output array IS that expression.  Nothing here but the index arithmetic of the blocks:
  row `r` of block `t` is row 5000·t + r of the array, every lane is kept, and the bias is always read at row 0.
-/
import proofs.«138359_j6201932775762_1_alg».proof.Proof.Gen.KernelIdeal.Frame
import proofs.«138359_j6201932775762_1_alg».proof.Proof.Gen.ReferenceIdeal
import proofs.«138359_j6201932775762_1_alg».proof.Proof.BiasBlock

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of the body's whole-buffer accesses, as the constant function. -/
theorem hz3 : (![0, 0] : Fin 2 → Nat) = fun _ => 0 := funext fun a => by fin_cases a <;> rfl

/-- The region's output as one function of its two input arrays: the reference's own operations. -/
abbrev G3 (A : Vec Ideal Cert.ReferenceIdeal.S50000x128 .f32) (B : Vec Ideal Cert.ReferenceIdeal.S1x128 .f32) :
    FVec Ideal Cert.ReferenceIdeal.S50000x128 .f32 :=
  maximumf (F := Ideal) (φ := .f32)
    (addf (F := Ideal) (φ := .f32) A
      (broadcastInDim Cert.ReferenceIdeal.S50000x128 ![0, 1] Cert.ReferenceIdeal.Gen.bcast_S1x128_S50000x128_0_1 B))
    (broadcastInDim Cert.ReferenceIdeal.S50000x128 ![] Cert.ReferenceIdeal.Gen.bcast_S_S50000x128
      (constant (F := Ideal) Cert.ReferenceIdeal.S_ .f32 0x00000000#32))

/-- The body's payload is the bias-and-rectifier expression of its two loaded blocks. -/
theorem pay3_eq (x0 : Vec Ideal S5000x128 .f32) (x1 : Vec Ideal S1x128 .f32) :
    k3_pay1 (F := Ideal) x0 x1
      = maximumf (addf (shapeCast S5000x128 x0 shapeCasts_S5000x128_S5000x128)
            (broadcastTo S5000x128 (shapeCast S1x128 x1 shapeCasts_S1x128_S1x128) broadcasts_S1x128_S5000x128))
          (broadcast S5000x128 (Scalar.ofBits (F := Ideal) .f32 0x00000000#32)) := rfl

/-- The printed index maps, decided once over the grid: the input and output blocks sit at the same block row (the
    point's number), on the one block column; the bias window is always its whole array. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every block row of the output is some point's. -/
theorem idx_onto3 : ∀ q0 : Fin 10, ∃ t : Fin cfg3.N, win3_2.index t = ![q0.val, 0] :=
  (by decide +kernel : ∀ q0 : Fin 10, ∃ t : Fin grid3.N, win3_2.index t = ![q0.val, 0])

/-- ONE ELEMENT OF A BLOCK, over variables: if the loaded block `x0` at (p, q) is the array `A` at (i, q) and the loaded
    bias `x1` is `B`, the payload at (p, q) is the whole-array expression at (i, q). -/
theorem pay3_apply (A : Vec Ideal Cert.ReferenceIdeal.S50000x128 .f32) (B : Vec Ideal Cert.ReferenceIdeal.S1x128 .f32)
    (x0 : Vec Ideal S5000x128 .f32) (x1 : Vec Ideal S1x128 .f32) (i : Fin 50000) (p : Fin 5000) (q : Fin 128)
    (h0 : x0 (ix2 p q) = A (ix2 i q)) (h1 : x1 (ix2 (0 : Fin 1) q) = B (ix2 (0 : Fin 1) q)) :
    k3_pay1 (F := Ideal) x0 x1 (ix2 p q) = G3 A B (ix2 i q) := by
  rw [pay3_eq, biasRelu_body_apply, h0, h1]
  exact (biasRelu_host_apply _ _ _ A B i q).symm

/-- WHAT POINT `t` WRITES BACK is block `t` of `G3` of the two input arrays as the region finds them. -/
theorem flushed3_eq (c : Dev nD) (t : Fin cfg3.N) :
    (dat3 (F := Ideal) V c).flushed 2 t
      = ((cfg3.win 2).blk t).view.read (Elt Ideal) (G3 (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz3]
  simp only [View.ld_unit_zero (S := S5000x128) hz3, View.ld_unit_zero (S := S1x128) hz3]
  obtain ⟨e0, e1, e2, e3, e4, e5⟩ := idx_facts3 t
  funext j
  obtain ⟨p, q, rfl⟩ : ∃ (p : Fin 5000) (q : Fin 128), j = ix2 p q := ⟨j 0, j 1, eq_ix2 j⟩
  have hp : p.val < 5000 := p.isLt
  -- the row of the array under row `p` of block `t`
  refine (pay3_apply (V c (Pipeline.arrRef spec3 0)) (V c (Pipeline.arrRef spec3 1)) (iblk3 V c 0 t) (iblk3 V c 1 t)
    ⟨win3_2.index t (0 : Fin 2) * 5000 + p.val, by omega⟩ p q ?_ ?_).trans ?_
  · -- the input block's element: same block row as the output's, the one block column
    show V c (Pipeline.arrRef spec3 0) (((cfg3.win 0).blk t).view.emb (ix2 p q)) = _
    refine congrArg _ (funext fun a => Fin.ext ?_)
    match a with
    | ⟨0, _⟩ => show win3_0.index t (0 : Fin 2) * 5000 + 1 * p.val = win3_2.index t (0 : Fin 2) * 5000 + p.val; omega
    | ⟨1, _⟩ => show win3_0.index t (1 : Fin 2) * 128 + 1 * q.val = q.val; omega
  · -- the bias block is the whole one-row array
    show V c (Pipeline.arrRef spec3 1) (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · -- the output block's element sits at the same place
    show _ = G3 (V c (Pipeline.arrRef spec3 0)) (V c (Pipeline.arrRef spec3 1)) (((cfg3.win 2).blk t).view.emb (ix2 p q))
    refine congrArg _ (funext fun a => Fin.ext ?_)
    match a with
    | ⟨0, _⟩ => show win3_2.index t (0 : Fin 2) * 5000 + p.val = win3_2.index t (0 : Fin 2) * 5000 + 1 * p.val; omega
    | ⟨1, _⟩ => show q.val = win3_2.index t (1 : Fin 2) * 128 + 1 * q.val; omega

/-- An index of the output array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- THE BLOCKS TILE THE OUTPUT: row `r` is in the block of the point whose block row is `r / 5000`. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE OUTPUT ARRAY after the region: the bias-and-rectifier expression of the two input arrays as the region finds
    them, as one whole-array host operation. -/
theorem br3 (c : Dev nD) :
    (dat3 (F := Ideal) V c).arrAt 2 cfg3.N
      = maximumf (F := Ideal) (φ := .f32)
          (addf (F := Ideal) (φ := .f32) (V c (Pipeline.arrRef spec3 0))
            (broadcastInDim Cert.ReferenceIdeal.S50000x128 ![0, 1] Cert.ReferenceIdeal.Gen.bcast_S1x128_S50000x128_0_1
              (V c (Pipeline.arrRef spec3 1))))
          (broadcastInDim Cert.ReferenceIdeal.S50000x128 ![] Cert.ReferenceIdeal.Gen.bcast_S_S50000x128
            (constant (F := Ideal) Cert.ReferenceIdeal.S_ .f32 0x00000000#32)) :=
  (dat3 (F := Ideal) V c).arrAt_eq_of_cover 2 (G3 (V c (Pipeline.arrRef spec3 0)) (V c (Pipeline.arrRef spec3 1)))
    (fun t _ => flushed3_eq V c t) (cover3)

end Cert.KernelIdeal.RegionValue

end
-- ==== Proof.Layer2.lean ====
/-
  Graph-convolution layer 2 of the idealized kernel, boundary by boundary.

  The layer's input `h` is the previous layer's output. A pipelined region multiplies it by the layer's weight
  matrix; the host operations after it gather the product's rows at the edges' sources, scale them by the edges'
  weights and add them up at the edges' targets, and reshape the bias to one row; a second region adds the bias to
  every row and takes the maximum with zero. The regions' output arrays are whole-array host operations of their input
  arrays (the matrix product; the sum with the broadcast row, then the maximum), and the host operations in between are
  the reference's own, so each buffer the layer writes holds the reference's stage of the same name: the two sides are
  the same composition of operations of the same inputs, compared as terms and never opened.
-/
import proofs.«138359_j6201932775762_1_alg».proof.Proof.Gen.KernelIdeal.Frame
import proofs.«138359_j6201932775762_1_alg».proof.Proof.RefRead
import proofs.«138359_j6201932775762_1_alg».proof.Proof.Carry
import proofs.«138359_j6201932775762_1_alg».proof.Proof.Edges
import proofs.«138359_j6201932775762_1_alg».proof.Proof.RowReshape
import proofs.«138359_j6201932775762_1_alg».proof.Proof.RegionMM2
import proofs.«138359_j6201932775762_1_alg».proof.Proof.RegionBR3

set_option maxRecDepth 16384
-- the notations below mention a projection, which the eager check of notations does not handle
set_option quotPrecheck false

noncomputable section

namespace Cert.KernelIdeal.Layer2

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

-- the launch contents of the argument arrays
local notation "X0" => m ((c : Thread nD τ).loc main_arg0)
local notation "X1" => m ((c : Thread nD τ).loc main_arg1)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)

/-- The product with the weight matrix: the first region's output array. -/
theorem product (hin : W6 m ρ c (Proc.devRef .tc main_v45) = val_main_v47 (F := Ideal) X0 X1 X3 X4) :
    W7 m ρ c (Proc.devRef .tc main_v46) = val_main_v48 (F := Ideal) X0 X1 X3 X4 X5 :=
  (W7_arr m ρ c 2).trans ((RegionValue.mm2 (V6 m ρ) c).trans (by
    have h0 : V6 m ρ c (Pipeline.arrRef spec2 0) = val_main_v47 (F := Ideal) X0 X1 X3 X4 := hin
    have h1 : V6 m ρ c (Pipeline.arrRef spec2 1) = X5 := (Carry.late_at6 m ρ c (b := main_arg5) (by decide)).trans (Carry.param_at3 m ρ c (b := main_arg5) (by decide))
    rw [h0, h1]
    rfl))

/-- The aggregate over the edges: rows gathered at the sources, scaled by the weights, summed at the targets. -/
theorem aggregate (hin : W6 m ρ c (Proc.devRef .tc main_v45) = val_main_v47 (F := Ideal) X0 X1 X3 X4) :
    W8 m ρ c (Proc.devRef .tc main_v59) = val_main_v61 (F := Ideal) X0 X1 X3 X4 X5 := by
  show StableHlo.after hostOps3 (W7 m ρ c) (Proc.devRef .tc main_v59) = _
  after_results_simp
  rw [product m ρ c hin, (Carry.late_at7 m ρ c (b := main_v3) (by decide)).trans (Edges.src_at3 m ρ c), (Carry.late_at7 m ρ c (b := main_v6) (by decide)).trans (Edges.dst_at3 m ρ c),
    (Carry.late_at7 m ρ c (b := main_v29) (by decide)).trans (Edges.norm_at3 m ρ c)]
  rfl

/-- The bias as one row. -/
theorem biasRow :
    W8 m ρ c (Proc.devRef .tc main_v60) = val_main_v62 (F := Ideal) X6 := by
  show StableHlo.after hostOps3 (W7 m ρ c) (Proc.devRef .tc main_v60) = _
  after_results_simp
  rw [(Carry.late_at7 m ρ c (b := main_arg6) (by decide)).trans (Carry.param_at3 m ρ c (b := main_arg6) (by decide))]
  exact RowReshape.reshape_row_eq_broadcast _ _ _

/-- The layer's output: the aggregate plus the bias row, rectified — the second region's output array. -/
theorem output (hin : W6 m ρ c (Proc.devRef .tc main_v45) = val_main_v47 (F := Ideal) X0 X1 X3 X4) :
    W9 m ρ c (Proc.devRef .tc main_v61) = val_main_v65 (F := Ideal) X0 X1 X3 X4 X5 X6 :=
  (W9_arr m ρ c 2).trans ((RegionValue.br3 (V8 m ρ) c).trans (by
    have h0 : V8 m ρ c (Pipeline.arrRef spec3 0) = val_main_v61 (F := Ideal) X0 X1 X3 X4 X5 := aggregate m ρ c hin
    have h1 : V8 m ρ c (Pipeline.arrRef spec3 1) = val_main_v62 (F := Ideal) X6 := biasRow m ρ c
    rw [h0, h1]
    rfl))

end Cert.KernelIdeal.Layer2

end
-- ==== Proof.RegionMM4.lean ====
/-
  Region 4: a matrix product computed block by block.

  The region walks a grid of 10 points. At point t it loads rows 5000·t … 5000·t + 4999 of the [50000, 128] array
  under its first window and the whole [128, 128] array under its second, multiplies them into a zero accumulator,
  and writes the [5000, 128] product back as rows 5000·t … of the array under its third window. Entry (r, j) of
  that product reads row r of the block — row 5000·t + r of the array — and column j of the right operand, so the
  block written at point t is block t of the product of the two WHOLE arrays; the ten blocks tile the output
  array, which therefore ends holding that whole product.
-/
import proofs.«138359_j6201932775762_1_alg».proof.Proof.Gen.KernelIdeal.Frame
import proofs.«138359_j6201932775762_1_alg».proof.Proof.MatmulBlock
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable [Cert.ReferenceIdeal.Facts₀]
variable (V : (c : Dev nD) → (b : Ref sig .tc) → Buf (Elt Ideal) ((c : Thread nD τ).loc b))

/-- The body's accesses start at the origin of their buffers. -/
theorem origin4 : (![0, 0] : Fin 2 → Nat) = fun _ => 0 := funext fun a => by fin_cases a <;> rfl

/-- The body's payload is the block product of its two loaded blocks (where the body first casts the left block to its
    own shape, the cast changes nothing). -/
theorem pay4_eq (x0 : Vec Ideal S5000x128 .f32) (x1 : Vec Ideal S128x128 .f32) :
    k4_pay1 x0 x1 = matmul dot_S5000x128_S128x128_S5000x128_1_0_0_1_n_n none (truncf .bf16 x0 bitsLt_bf16_f32 : FVec Ideal S5000x128 .bf16)
      (truncf .bf16 x1 bitsLt_bf16_f32 : FVec Ideal S128x128 .bf16) (constant S5000x128 .f32 0x00000000#32) := by
  unfold k4_pay1
  first | rfl | rw [shapeCast_self]

/-- The index maps, decided over the grid: the left window's block of rows is the output window's, on the lane axis
    every window is at block 0, the right window stays at block (0, 0), and the output's row block is below 10. -/
theorem idx_facts4 : ∀ t : Fin cfg4.N,
      win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every one of the ten row blocks of the output is some point's. -/
theorem idx_onto4 : ∀ q : Fin 10, ∃ t : Fin cfg4.N, win4_2.index t = ![q.val, 0] :=
  (by decide +kernel : ∀ q : Fin 10, ∃ t : Fin grid4.N, win4_2.index t = ![q.val, 0])

set_option maxHeartbeats 1000000 in
/-- WHAT POINT `t` WRITES BACK is block `t` of the product of the two whole arrays the region finds under its input
    windows: row `r` of the block product reads row `r` of the left block, which is row `5000·t + r` of the left
    array, and the right block is the right array. -/
theorem flushed4_eq (c : Dev nD) (t : Fin cfg4.N) :
    (dat4 (F := Ideal) V c).flushed 2 t = ((cfg4.win 2).blk t).view.read (Elt Ideal)
      (Host.dotGeneral (F := Ideal) (φ₁ := .f32) (φ₂ := .f32) Cert.ReferenceIdeal.dot_S50000x128_S128x128_S50000x128_1_0_0_1_n_n none
        (V c (Pipeline.arrRef spec4 0)) (V c (Pipeline.arrRef spec4 1))) := by
  show (cfg4.win 2).cut (grid4.coords t) ((dat4 V c).after 2 t) = _
  rw [after4_2]
  unfold out4_2
  rw [View.canon_unit_zero origin4]
  simp only [View.ld_unit_zero (S := S5000x128) origin4, View.ld_unit_zero (S := S128x128) origin4]
  rw [pay4_eq]
  obtain ⟨e0, e1, e2, e3, e4, e5⟩ := idx_facts4 t
  funext y
  refine block_matmul_eq_whole_dot (V c (Pipeline.arrRef spec4 0)) (V c (Pipeline.arrRef spec4 1))
    (iblk4 V c 0 t) (iblk4 V c 1 t) bitsLt_bf16_f32 ((cfg4.win 2).xinj (grid4.coords t) y)
    (((cfg4.win 2).blk t).view.emb y) (fun k => ?_) (fun k => ?_)
  · show V c (Pipeline.arrRef spec4 0) (((cfg4.win 0).blk t).view.emb (ix2 (⟨(y 0).val, _⟩ : Fin 5000) k))
      = V c (Pipeline.arrRef spec4 0) (ix2 (⟨((((cfg4.win 2).blk t).view.emb y) 0).val, _⟩ : Fin 50000) k)
    refine congrArg _ (funext fun a => Fin.ext ?_)
    match a with
    | ⟨0, _⟩ => show win4_0.index t (0 : Fin 2) * 5000 + 1 * (y 0).val = win4_2.index t (0 : Fin 2) * 5000 + 1 * (y 0).val; omega
    | ⟨1, _⟩ => show win4_0.index t (1 : Fin 2) * 128 + 1 * k.val = k.val; omega
  · show V c (Pipeline.arrRef spec4 1) (((cfg4.win 1).blk t).view.emb (ix2 k (⟨(y 1).val, _⟩ : Fin 128)))
      = V c (Pipeline.arrRef spec4 1) (ix2 k (⟨((((cfg4.win 2).blk t).view.emb y) 1).val, _⟩ : Fin 128))
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * (y 1).val = win4_2.index t (1 : Fin 2) * 128 + 1 * (y 1).val; omega

/-- An index of the output array is in point `t`'s block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v62).slice (win4_2.rect t)).set ↔ _
  rw [View.set_slice_whole, Rect.mem_set_unit]
  exact Iff.rfl

/-- The ten blocks tile the output array: row `i` is in the block of the point whose row block is `i / 5000`. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- THE OUTPUT ARRAY AFTER THE REGION is the product of the two whole arrays the region finds under its input
    windows. -/
theorem mm4 (c : Dev nD) :
    (dat4 (F := Ideal) V c).arrAt 2 cfg4.N
      = Host.dotGeneral (F := Ideal) (φ₁ := .f32) (φ₂ := .f32) Cert.ReferenceIdeal.dot_S50000x128_S128x128_S50000x128_1_0_0_1_n_n none (V c (Pipeline.arrRef spec4 0)) (V c (Pipeline.arrRef spec4 1)) :=
  (dat4 V c).arrAt_eq_of_cover 2 _ (fun t _ => flushed4_eq V c t) cover4

end Cert.KernelIdeal.RegionValue

end
-- ==== Proof.RegionBR5.lean ====
/-
  Region 5 (bias and rectifier), as one whole-array operation.

  The region walks a grid of 10 points.  At point `t` the body sees rows 5000·t … 5000·t + 4999 of the 50000 by 128
  input, and the whole one-row bias; it writes back the same rows of the output.  Its arithmetic is pointwise, so what
  point `t` writes back is block `t` of ONE function of the two input arrays,
      out (i, j) = max (A (i, j) + b (0, j)) 0,
  which is the host expression `maximumf (addf A (broadcast b)) (broadcast 0)`.  The ten blocks tile the output, so
  after the last write-back the output array IS that expression.  Nothing here but the index arithmetic of the blocks:
  row `r` of block `t` is row 5000·t + r of the array, every lane is kept, and the bias is always read at row 0.
-/
import proofs.«138359_j6201932775762_1_alg».proof.Proof.Gen.KernelIdeal.Frame
import proofs.«138359_j6201932775762_1_alg».proof.Proof.Gen.ReferenceIdeal
import proofs.«138359_j6201932775762_1_alg».proof.Proof.BiasBlock

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of the body's whole-buffer accesses, as the constant function. -/
theorem hz5 : (![0, 0] : Fin 2 → Nat) = fun _ => 0 := funext fun a => by fin_cases a <;> rfl

/-- The region's output as one function of its two input arrays: the reference's own operations. -/
abbrev G5 (A : Vec Ideal Cert.ReferenceIdeal.S50000x128 .f32) (B : Vec Ideal Cert.ReferenceIdeal.S1x128 .f32) :
    FVec Ideal Cert.ReferenceIdeal.S50000x128 .f32 :=
  maximumf (F := Ideal) (φ := .f32)
    (addf (F := Ideal) (φ := .f32) A
      (broadcastInDim Cert.ReferenceIdeal.S50000x128 ![0, 1] Cert.ReferenceIdeal.Gen.bcast_S1x128_S50000x128_0_1 B))
    (broadcastInDim Cert.ReferenceIdeal.S50000x128 ![] Cert.ReferenceIdeal.Gen.bcast_S_S50000x128
      (constant (F := Ideal) Cert.ReferenceIdeal.S_ .f32 0x00000000#32))

/-- The body's payload is the bias-and-rectifier expression of its two loaded blocks. -/
theorem pay5_eq (x0 : Vec Ideal S5000x128 .f32) (x1 : Vec Ideal S1x128 .f32) :
    k5_pay1 (F := Ideal) x0 x1
      = maximumf (addf (shapeCast S5000x128 x0 shapeCasts_S5000x128_S5000x128)
            (broadcastTo S5000x128 (shapeCast S1x128 x1 shapeCasts_S1x128_S1x128) broadcasts_S1x128_S5000x128))
          (broadcast S5000x128 (Scalar.ofBits (F := Ideal) .f32 0x00000000#32)) := rfl

/-- The printed index maps, decided once over the grid: the input and output blocks sit at the same block row (the
    point's number), on the one block column; the bias window is always its whole array. -/
theorem idx_facts5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) ≤ 9
    ∧ win5_2.index t (1 : Fin 2) = 0 :=
  (by decide +kernel : ∀ t : Fin grid5.N, _)

/-- Every block row of the output is some point's. -/
theorem idx_onto5 : ∀ q0 : Fin 10, ∃ t : Fin cfg5.N, win5_2.index t = ![q0.val, 0] :=
  (by decide +kernel : ∀ q0 : Fin 10, ∃ t : Fin grid5.N, win5_2.index t = ![q0.val, 0])

/-- ONE ELEMENT OF A BLOCK, over variables: if the loaded block `x0` at (p, q) is the array `A` at (i, q) and the loaded
    bias `x1` is `B`, the payload at (p, q) is the whole-array expression at (i, q). -/
theorem pay5_apply (A : Vec Ideal Cert.ReferenceIdeal.S50000x128 .f32) (B : Vec Ideal Cert.ReferenceIdeal.S1x128 .f32)
    (x0 : Vec Ideal S5000x128 .f32) (x1 : Vec Ideal S1x128 .f32) (i : Fin 50000) (p : Fin 5000) (q : Fin 128)
    (h0 : x0 (ix2 p q) = A (ix2 i q)) (h1 : x1 (ix2 (0 : Fin 1) q) = B (ix2 (0 : Fin 1) q)) :
    k5_pay1 (F := Ideal) x0 x1 (ix2 p q) = G5 A B (ix2 i q) := by
  rw [pay5_eq, biasRelu_body_apply, h0, h1]
  exact (biasRelu_host_apply _ _ _ A B i q).symm

/-- WHAT POINT `t` WRITES BACK is block `t` of `G5` of the two input arrays as the region finds them. -/
theorem flushed5_eq (c : Dev nD) (t : Fin cfg5.N) :
    (dat5 (F := Ideal) V c).flushed 2 t
      = ((cfg5.win 2).blk t).view.read (Elt Ideal) (G5 (V c (Pipeline.arrRef spec5 0)) (V c (Pipeline.arrRef spec5 1))) := by
  show (cfg5.win 2).cut (grid5.coords t) ((dat5 (F := Ideal) V c).after 2 t) = _
  rw [after5_2]
  unfold out5_2
  rw [View.canon_unit_zero hz5]
  simp only [View.ld_unit_zero (S := S5000x128) hz5, View.ld_unit_zero (S := S1x128) hz5]
  obtain ⟨e0, e1, e2, e3, e4, e5⟩ := idx_facts5 t
  funext j
  obtain ⟨p, q, rfl⟩ : ∃ (p : Fin 5000) (q : Fin 128), j = ix2 p q := ⟨j 0, j 1, eq_ix2 j⟩
  have hp : p.val < 5000 := p.isLt
  -- the row of the array under row `p` of block `t`
  refine (pay5_apply (V c (Pipeline.arrRef spec5 0)) (V c (Pipeline.arrRef spec5 1)) (iblk5 V c 0 t) (iblk5 V c 1 t)
    ⟨win5_2.index t (0 : Fin 2) * 5000 + p.val, by omega⟩ p q ?_ ?_).trans ?_
  · -- the input block's element: same block row as the output's, the one block column
    show V c (Pipeline.arrRef spec5 0) (((cfg5.win 0).blk t).view.emb (ix2 p q)) = _
    refine congrArg _ (funext fun a => Fin.ext ?_)
    match a with
    | ⟨0, _⟩ => show win5_0.index t (0 : Fin 2) * 5000 + 1 * p.val = win5_2.index t (0 : Fin 2) * 5000 + p.val; omega
    | ⟨1, _⟩ => show win5_0.index t (1 : Fin 2) * 128 + 1 * q.val = q.val; omega
  · -- the bias block is the whole one-row array
    show V c (Pipeline.arrRef spec5 1) (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  · -- the output block's element sits at the same place
    show _ = G5 (V c (Pipeline.arrRef spec5 0)) (V c (Pipeline.arrRef spec5 1)) (((cfg5.win 2).blk t).view.emb (ix2 p q))
    refine congrArg _ (funext fun a => Fin.ext ?_)
    match a with
    | ⟨0, _⟩ => show win5_2.index t (0 : Fin 2) * 5000 + p.val = win5_2.index t (0 : Fin 2) * 5000 + 1 * p.val; omega
    | ⟨1, _⟩ => show q.val = win5_2.index t (1 : Fin 2) * 128 + 1 * q.val; omega

/-- An index of the output array is in point `t`'s block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v77).slice (win5_2.rect t)).set ↔ _
  rw [View.set_slice_whole, Rect.mem_set_unit]
  exact Iff.rfl

/-- THE BLOCKS TILE THE OUTPUT: row `r` is in the block of the point whose block row is `r / 5000`. -/
theorem cover5 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := idx_onto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- THE OUTPUT ARRAY after the region: the bias-and-rectifier expression of the two input arrays as the region finds
    them, as one whole-array host operation. -/
theorem br5 (c : Dev nD) :
    (dat5 (F := Ideal) V c).arrAt 2 cfg5.N
      = maximumf (F := Ideal) (φ := .f32)
          (addf (F := Ideal) (φ := .f32) (V c (Pipeline.arrRef spec5 0))
            (broadcastInDim Cert.ReferenceIdeal.S50000x128 ![0, 1] Cert.ReferenceIdeal.Gen.bcast_S1x128_S50000x128_0_1
              (V c (Pipeline.arrRef spec5 1))))
          (broadcastInDim Cert.ReferenceIdeal.S50000x128 ![] Cert.ReferenceIdeal.Gen.bcast_S_S50000x128
            (constant (F := Ideal) Cert.ReferenceIdeal.S_ .f32 0x00000000#32)) :=
  (dat5 (F := Ideal) V c).arrAt_eq_of_cover 2 (G5 (V c (Pipeline.arrRef spec5 0)) (V c (Pipeline.arrRef spec5 1)))
    (fun t _ => flushed5_eq V c t) (cover5)

end Cert.KernelIdeal.RegionValue

end
-- ==== Proof.Layer3.lean ====
/-
  Graph-convolution layer 3 of the idealized kernel, boundary by boundary.

  The layer's input `h` is the previous layer's output. A pipelined region multiplies it by the layer's weight
  matrix; the host operations after it gather the product's rows at the edges' sources, scale them by the edges'
  weights and add them up at the edges' targets, and reshape the bias to one row; a second region adds the bias to
  every row and takes the maximum with zero. The regions' output arrays are whole-array host operations of their input
  arrays (the matrix product; the sum with the broadcast row, then the maximum), and the host operations in between are
  the reference's own, so each buffer the layer writes holds the reference's stage of the same name: the two sides are
  the same composition of operations of the same inputs, compared as terms and never opened.
-/
import proofs.«138359_j6201932775762_1_alg».proof.Proof.Gen.KernelIdeal.Frame
import proofs.«138359_j6201932775762_1_alg».proof.Proof.RefRead
import proofs.«138359_j6201932775762_1_alg».proof.Proof.Carry
import proofs.«138359_j6201932775762_1_alg».proof.Proof.Edges
import proofs.«138359_j6201932775762_1_alg».proof.Proof.RowReshape
import proofs.«138359_j6201932775762_1_alg».proof.Proof.RegionMM4
import proofs.«138359_j6201932775762_1_alg».proof.Proof.RegionBR5

set_option maxRecDepth 16384
-- the notations below mention a projection, which the eager check of notations does not handle
set_option quotPrecheck false

noncomputable section

namespace Cert.KernelIdeal.Layer3

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

-- the launch contents of the argument arrays
local notation "X0" => m ((c : Thread nD τ).loc main_arg0)
local notation "X1" => m ((c : Thread nD τ).loc main_arg1)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)

/-- The product with the weight matrix: the first region's output array. -/
theorem product (hin : W9 m ρ c (Proc.devRef .tc main_v61) = val_main_v65 (F := Ideal) X0 X1 X3 X4 X5 X6) :
    W10 m ρ c (Proc.devRef .tc main_v62) = val_main_v66 (F := Ideal) X0 X1 X3 X4 X5 X6 X7 :=
  (W10_arr m ρ c 2).trans ((RegionValue.mm4 (V9 m ρ) c).trans (by
    have h0 : V9 m ρ c (Pipeline.arrRef spec4 0) = val_main_v65 (F := Ideal) X0 X1 X3 X4 X5 X6 := hin
    have h1 : V9 m ρ c (Pipeline.arrRef spec4 1) = X7 := (Carry.late_at9 m ρ c (b := main_arg7) (by decide)).trans (Carry.param_at3 m ρ c (b := main_arg7) (by decide))
    rw [h0, h1]
    rfl))

/-- The aggregate over the edges: rows gathered at the sources, scaled by the weights, summed at the targets. -/
theorem aggregate (hin : W9 m ρ c (Proc.devRef .tc main_v61) = val_main_v65 (F := Ideal) X0 X1 X3 X4 X5 X6) :
    W11 m ρ c (Proc.devRef .tc main_v75) = val_main_v79 (F := Ideal) X0 X1 X3 X4 X5 X6 X7 := by
  show StableHlo.after hostOps5 (W10 m ρ c) (Proc.devRef .tc main_v75) = _
  after_results_simp
  rw [product m ρ c hin, (Carry.late_at10 m ρ c (b := main_v3) (by decide)).trans (Edges.src_at3 m ρ c), (Carry.late_at10 m ρ c (b := main_v6) (by decide)).trans (Edges.dst_at3 m ρ c),
    (Carry.late_at10 m ρ c (b := main_v29) (by decide)).trans (Edges.norm_at3 m ρ c)]
  rfl

/-- The bias as one row. -/
theorem biasRow :
    W11 m ρ c (Proc.devRef .tc main_v76) = val_main_v80 (F := Ideal) X8 := by
  show StableHlo.after hostOps5 (W10 m ρ c) (Proc.devRef .tc main_v76) = _
  after_results_simp
  rw [(Carry.late_at10 m ρ c (b := main_arg8) (by decide)).trans (Carry.param_at3 m ρ c (b := main_arg8) (by decide))]
  exact RowReshape.reshape_row_eq_broadcast _ _ _

/-- The layer's output: the aggregate plus the bias row, rectified — the second region's output array. -/
theorem output (hin : W9 m ρ c (Proc.devRef .tc main_v61) = val_main_v65 (F := Ideal) X0 X1 X3 X4 X5 X6) :
    W12 m ρ c (Proc.devRef .tc main_v77) = val_main_v83 (F := Ideal) X0 X1 X3 X4 X5 X6 X7 X8 :=
  (W12_arr m ρ c 2).trans ((RegionValue.br5 (V11 m ρ) c).trans (by
    have h0 : V11 m ρ c (Pipeline.arrRef spec5 0) = val_main_v79 (F := Ideal) X0 X1 X3 X4 X5 X6 X7 := aggregate m ρ c hin
    have h1 : V11 m ρ c (Pipeline.arrRef spec5 1) = val_main_v80 (F := Ideal) X8 := biasRow m ρ c
    rw [h0, h1]
    rfl))

end Cert.KernelIdeal.Layer3

end
-- ==== Proof.RegionMM6.lean ====
/-
  Region 6: a matrix product computed block by block.

  The region walks a grid of 10 points. At point t it loads rows 5000·t … 5000·t + 4999 of the [50000, 128] array
  under its first window and the whole [128, 128] array under its second, multiplies them into a zero accumulator,
  and writes the [5000, 128] product back as rows 5000·t … of the array under its third window. Entry (r, j) of
  that product reads row r of the block — row 5000·t + r of the array — and column j of the right operand, so the
  block written at point t is block t of the product of the two WHOLE arrays; the ten blocks tile the output
  array, which therefore ends holding that whole product.
-/
import proofs.«138359_j6201932775762_1_alg».proof.Proof.Gen.KernelIdeal.Frame
import proofs.«138359_j6201932775762_1_alg».proof.Proof.MatmulBlock
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable [Cert.ReferenceIdeal.Facts₀]
variable (V : (c : Dev nD) → (b : Ref sig .tc) → Buf (Elt Ideal) ((c : Thread nD τ).loc b))

/-- The body's accesses start at the origin of their buffers. -/
theorem origin6 : (![0, 0] : Fin 2 → Nat) = fun _ => 0 := funext fun a => by fin_cases a <;> rfl

/-- The body's payload is the block product of its two loaded blocks (where the body first casts the left block to its
    own shape, the cast changes nothing). -/
theorem pay6_eq (x0 : Vec Ideal S5000x128 .f32) (x1 : Vec Ideal S128x128 .f32) :
    k6_pay1 x0 x1 = matmul dot_S5000x128_S128x128_S5000x128_1_0_0_1_n_n none (truncf .bf16 x0 bitsLt_bf16_f32 : FVec Ideal S5000x128 .bf16)
      (truncf .bf16 x1 bitsLt_bf16_f32 : FVec Ideal S128x128 .bf16) (constant S5000x128 .f32 0x00000000#32) := by
  unfold k6_pay1
  first | rfl | rw [shapeCast_self]

/-- The index maps, decided over the grid: the left window's block of rows is the output window's, on the lane axis
    every window is at block 0, the right window stays at block (0, 0), and the output's row block is below 10. -/
theorem idx_facts6 : ∀ t : Fin cfg6.N,
      win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 9 :=
  (by decide +kernel : ∀ t : Fin grid6.N, _)

/-- Every one of the ten row blocks of the output is some point's. -/
theorem idx_onto6 : ∀ q : Fin 10, ∃ t : Fin cfg6.N, win6_2.index t = ![q.val, 0] :=
  (by decide +kernel : ∀ q : Fin 10, ∃ t : Fin grid6.N, win6_2.index t = ![q.val, 0])

set_option maxHeartbeats 1000000 in
/-- WHAT POINT `t` WRITES BACK is block `t` of the product of the two whole arrays the region finds under its input
    windows: row `r` of the block product reads row `r` of the left block, which is row `5000·t + r` of the left
    array, and the right block is the right array. -/
theorem flushed6_eq (c : Dev nD) (t : Fin cfg6.N) :
    (dat6 (F := Ideal) V c).flushed 2 t = ((cfg6.win 2).blk t).view.read (Elt Ideal)
      (Host.dotGeneral (F := Ideal) (φ₁ := .f32) (φ₂ := .f32) Cert.ReferenceIdeal.dot_S50000x128_S128x128_S50000x128_1_0_0_1_n_n none
        (V c (Pipeline.arrRef spec6 0)) (V c (Pipeline.arrRef spec6 1))) := by
  show (cfg6.win 2).cut (grid6.coords t) ((dat6 V c).after 2 t) = _
  rw [after6_2]
  unfold out6_2
  rw [View.canon_unit_zero origin6]
  simp only [View.ld_unit_zero (S := S5000x128) origin6, View.ld_unit_zero (S := S128x128) origin6]
  rw [pay6_eq]
  obtain ⟨e0, e1, e2, e3, e4, e5⟩ := idx_facts6 t
  funext y
  refine block_matmul_eq_whole_dot (V c (Pipeline.arrRef spec6 0)) (V c (Pipeline.arrRef spec6 1))
    (iblk6 V c 0 t) (iblk6 V c 1 t) bitsLt_bf16_f32 ((cfg6.win 2).xinj (grid6.coords t) y)
    (((cfg6.win 2).blk t).view.emb y) (fun k => ?_) (fun k => ?_)
  · show V c (Pipeline.arrRef spec6 0) (((cfg6.win 0).blk t).view.emb (ix2 (⟨(y 0).val, _⟩ : Fin 5000) k))
      = V c (Pipeline.arrRef spec6 0) (ix2 (⟨((((cfg6.win 2).blk t).view.emb y) 0).val, _⟩ : Fin 50000) k)
    refine congrArg _ (funext fun a => Fin.ext ?_)
    match a with
    | ⟨0, _⟩ => show win6_0.index t (0 : Fin 2) * 5000 + 1 * (y 0).val = win6_2.index t (0 : Fin 2) * 5000 + 1 * (y 0).val; omega
    | ⟨1, _⟩ => show win6_0.index t (1 : Fin 2) * 128 + 1 * k.val = k.val; omega
  · show V c (Pipeline.arrRef spec6 1) (((cfg6.win 1).blk t).view.emb (ix2 k (⟨(y 1).val, _⟩ : Fin 128)))
      = V c (Pipeline.arrRef spec6 1) (ix2 k (⟨((((cfg6.win 2).blk t).view.emb y) 1).val, _⟩ : Fin 128))
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * (y 1).val = win6_2.index t (1 : Fin 2) * 128 + 1 * (y 1).val; omega

/-- An index of the output array is in point `t`'s block iff each coordinate is in the block's range on its axis. -/
theorem mem_blk6 (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v78).slice (win6_2.rect t)).set ↔ _
  rw [View.set_slice_whole, Rect.mem_set_unit]
  exact Iff.rfl

/-- The ten blocks tile the output array: row `i` is in the block of the point whose row block is `i / 5000`. -/
theorem cover6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := idx_onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- THE OUTPUT ARRAY AFTER THE REGION is the product of the two whole arrays the region finds under its input
    windows. -/
theorem mm6 (c : Dev nD) :
    (dat6 (F := Ideal) V c).arrAt 2 cfg6.N
      = Host.dotGeneral (F := Ideal) (φ₁ := .f32) (φ₂ := .f32) Cert.ReferenceIdeal.dot_S50000x128_S128x128_S50000x128_1_0_0_1_n_n none (V c (Pipeline.arrRef spec6 0)) (V c (Pipeline.arrRef spec6 1)) :=
  (dat6 V c).arrAt_eq_of_cover 2 _ (fun t _ => flushed6_eq V c t) cover6

end Cert.KernelIdeal.RegionValue

end
-- ==== Proof.RegionBR7.lean ====
/-
  Region 7 (bias and rectifier), as one whole-array operation.

  The region walks a grid of 10 points.  At point `t` the body sees rows 5000·t … 5000·t + 4999 of the 50000 by 128
  input, and the whole one-row bias; it writes back the same rows of the output.  Its arithmetic is pointwise, so what
  point `t` writes back is block `t` of ONE function of the two input arrays,
      out (i, j) = max (A (i, j) + b (0, j)) 0,
  which is the host expression `maximumf (addf A (broadcast b)) (broadcast 0)`.  The ten blocks tile the output, so
  after the last write-back the output array IS that expression.  Nothing here but the index arithmetic of the blocks:
  row `r` of block `t` is row 5000·t + r of the array, every lane is kept, and the bias is always read at row 0.
-/
import proofs.«138359_j6201932775762_1_alg».proof.Proof.Gen.KernelIdeal.Frame
import proofs.«138359_j6201932775762_1_alg».proof.Proof.Gen.ReferenceIdeal
import proofs.«138359_j6201932775762_1_alg».proof.Proof.BiasBlock

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of the body's whole-buffer accesses, as the constant function. -/
theorem hz7 : (![0, 0] : Fin 2 → Nat) = fun _ => 0 := funext fun a => by fin_cases a <;> rfl

/-- The region's output as one function of its two input arrays: the reference's own operations. -/
abbrev G7 (A : Vec Ideal Cert.ReferenceIdeal.S50000x128 .f32) (B : Vec Ideal Cert.ReferenceIdeal.S1x128 .f32) :
    FVec Ideal Cert.ReferenceIdeal.S50000x128 .f32 :=
  maximumf (F := Ideal) (φ := .f32)
    (addf (F := Ideal) (φ := .f32) A
      (broadcastInDim Cert.ReferenceIdeal.S50000x128 ![0, 1] Cert.ReferenceIdeal.Gen.bcast_S1x128_S50000x128_0_1 B))
    (broadcastInDim Cert.ReferenceIdeal.S50000x128 ![] Cert.ReferenceIdeal.Gen.bcast_S_S50000x128
      (constant (F := Ideal) Cert.ReferenceIdeal.S_ .f32 0x00000000#32))

/-- The body's payload is the bias-and-rectifier expression of its two loaded blocks. -/
theorem pay7_eq (x0 : Vec Ideal S5000x128 .f32) (x1 : Vec Ideal S1x128 .f32) :
    k7_pay1 (F := Ideal) x0 x1
      = maximumf (addf (shapeCast S5000x128 x0 shapeCasts_S5000x128_S5000x128)
            (broadcastTo S5000x128 (shapeCast S1x128 x1 shapeCasts_S1x128_S1x128) broadcasts_S1x128_S5000x128))
          (broadcast S5000x128 (Scalar.ofBits (F := Ideal) .f32 0x00000000#32)) := rfl

/-- The printed index maps, decided once over the grid: the input and output blocks sit at the same block row (the
    point's number), on the one block column; the bias window is always its whole array. -/
theorem idx_facts7 : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (0 : Fin 2) ≤ 9
    ∧ win7_2.index t (1 : Fin 2) = 0 :=
  (by decide +kernel : ∀ t : Fin grid7.N, _)

/-- Every block row of the output is some point's. -/
theorem idx_onto7 : ∀ q0 : Fin 10, ∃ t : Fin cfg7.N, win7_2.index t = ![q0.val, 0] :=
  (by decide +kernel : ∀ q0 : Fin 10, ∃ t : Fin grid7.N, win7_2.index t = ![q0.val, 0])

/-- ONE ELEMENT OF A BLOCK, over variables: if the loaded block `x0` at (p, q) is the array `A` at (i, q) and the loaded
    bias `x1` is `B`, the payload at (p, q) is the whole-array expression at (i, q). -/
theorem pay7_apply (A : Vec Ideal Cert.ReferenceIdeal.S50000x128 .f32) (B : Vec Ideal Cert.ReferenceIdeal.S1x128 .f32)
    (x0 : Vec Ideal S5000x128 .f32) (x1 : Vec Ideal S1x128 .f32) (i : Fin 50000) (p : Fin 5000) (q : Fin 128)
    (h0 : x0 (ix2 p q) = A (ix2 i q)) (h1 : x1 (ix2 (0 : Fin 1) q) = B (ix2 (0 : Fin 1) q)) :
    k7_pay1 (F := Ideal) x0 x1 (ix2 p q) = G7 A B (ix2 i q) := by
  rw [pay7_eq, biasRelu_body_apply, h0, h1]
  exact (biasRelu_host_apply _ _ _ A B i q).symm

/-- WHAT POINT `t` WRITES BACK is block `t` of `G7` of the two input arrays as the region finds them. -/
theorem flushed7_eq (c : Dev nD) (t : Fin cfg7.N) :
    (dat7 (F := Ideal) V c).flushed 2 t
      = ((cfg7.win 2).blk t).view.read (Elt Ideal) (G7 (V c (Pipeline.arrRef spec7 0)) (V c (Pipeline.arrRef spec7 1))) := by
  show (cfg7.win 2).cut (grid7.coords t) ((dat7 (F := Ideal) V c).after 2 t) = _
  rw [after7_2]
  unfold out7_2
  rw [View.canon_unit_zero hz7]
  simp only [View.ld_unit_zero (S := S5000x128) hz7, View.ld_unit_zero (S := S1x128) hz7]
  obtain ⟨e0, e1, e2, e3, e4, e5⟩ := idx_facts7 t
  funext j
  obtain ⟨p, q, rfl⟩ : ∃ (p : Fin 5000) (q : Fin 128), j = ix2 p q := ⟨j 0, j 1, eq_ix2 j⟩
  have hp : p.val < 5000 := p.isLt
  -- the row of the array under row `p` of block `t`
  refine (pay7_apply (V c (Pipeline.arrRef spec7 0)) (V c (Pipeline.arrRef spec7 1)) (iblk7 V c 0 t) (iblk7 V c 1 t)
    ⟨win7_2.index t (0 : Fin 2) * 5000 + p.val, by omega⟩ p q ?_ ?_).trans ?_
  · -- the input block's element: same block row as the output's, the one block column
    show V c (Pipeline.arrRef spec7 0) (((cfg7.win 0).blk t).view.emb (ix2 p q)) = _
    refine congrArg _ (funext fun a => Fin.ext ?_)
    match a with
    | ⟨0, _⟩ => show win7_0.index t (0 : Fin 2) * 5000 + 1 * p.val = win7_2.index t (0 : Fin 2) * 5000 + p.val; omega
    | ⟨1, _⟩ => show win7_0.index t (1 : Fin 2) * 128 + 1 * q.val = q.val; omega
  · -- the bias block is the whole one-row array
    show V c (Pipeline.arrRef spec7 1) (((cfg7.win 1).blk t).view.emb (ix2 (0 : Fin 1) q)) = _
    refine congrArg _ (funext fun a => Fin.ext ?_)
    match a with
    | ⟨0, _⟩ => show win7_1.index t (0 : Fin 2) * 1 + 1 * 0 = 0; omega
    | ⟨1, _⟩ => show win7_1.index t (1 : Fin 2) * 128 + 1 * q.val = q.val; omega
  · -- the output block's element sits at the same place
    show _ = G7 (V c (Pipeline.arrRef spec7 0)) (V c (Pipeline.arrRef spec7 1)) (((cfg7.win 2).blk t).view.emb (ix2 p q))
    refine congrArg _ (funext fun a => Fin.ext ?_)
    match a with
    | ⟨0, _⟩ => show win7_2.index t (0 : Fin 2) * 5000 + p.val = win7_2.index t (0 : Fin 2) * 5000 + 1 * p.val; omega
    | ⟨1, _⟩ => show q.val = win7_2.index t (1 : Fin 2) * 128 + 1 * q.val; omega

/-- An index of the output array is in point `t`'s block iff each coordinate is in the block's range on its axis. -/
theorem mem_blk7 (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v93).slice (win7_2.rect t)).set ↔ _
  rw [View.set_slice_whole, Rect.mem_set_unit]
  exact Iff.rfl

/-- THE BLOCKS TILE THE OUTPUT: row `r` is in the block of the point whose block row is `r / 5000`. -/
theorem cover7 (i : S50000x128.Idx) :
    ∃ t : Fin cfg7.N, (cfg7.win 2).flush t = true ∧ i ∈ ((cfg7.win 2).blk t).view.set := by
  have hi0 : (i 0).val < 50000 := (i 0).isLt
  have hi1 : (i 1).val < 128 := (i 1).isLt
  obtain ⟨t, ht⟩ := idx_onto7 ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_blk7]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 128 ≤ (i 1).val ∧ (i 1).val < win7_2.index t (1 : Fin 2) * 128 + 128; omega

/-- THE OUTPUT ARRAY after the region: the bias-and-rectifier expression of the two input arrays as the region finds
    them, as one whole-array host operation. -/
theorem br7 (c : Dev nD) :
    (dat7 (F := Ideal) V c).arrAt 2 cfg7.N
      = maximumf (F := Ideal) (φ := .f32)
          (addf (F := Ideal) (φ := .f32) (V c (Pipeline.arrRef spec7 0))
            (broadcastInDim Cert.ReferenceIdeal.S50000x128 ![0, 1] Cert.ReferenceIdeal.Gen.bcast_S1x128_S50000x128_0_1
              (V c (Pipeline.arrRef spec7 1))))
          (broadcastInDim Cert.ReferenceIdeal.S50000x128 ![] Cert.ReferenceIdeal.Gen.bcast_S_S50000x128
            (constant (F := Ideal) Cert.ReferenceIdeal.S_ .f32 0x00000000#32)) :=
  (dat7 (F := Ideal) V c).arrAt_eq_of_cover 2 (G7 (V c (Pipeline.arrRef spec7 0)) (V c (Pipeline.arrRef spec7 1)))
    (fun t _ => flushed7_eq V c t) (cover7)

end Cert.KernelIdeal.RegionValue

end
-- ==== Proof.Layer4.lean ====
/-
  Graph-convolution layer 4 of the idealized kernel, boundary by boundary.

  The layer's input `h` is the previous layer's output. A pipelined region multiplies it by the layer's weight
  matrix; the host operations after it gather the product's rows at the edges' sources, scale them by the edges'
  weights and add them up at the edges' targets, and reshape the bias to one row; a second region adds the bias to
  every row and takes the maximum with zero. The regions' output arrays are whole-array host operations of their input
  arrays (the matrix product; the sum with the broadcast row, then the maximum), and the host operations in between are
  the reference's own, so each buffer the layer writes holds the reference's stage of the same name: the two sides are
  the same composition of operations of the same inputs, compared as terms and never opened.
-/
import proofs.«138359_j6201932775762_1_alg».proof.Proof.Gen.KernelIdeal.Frame
import proofs.«138359_j6201932775762_1_alg».proof.Proof.RefRead
import proofs.«138359_j6201932775762_1_alg».proof.Proof.Carry
import proofs.«138359_j6201932775762_1_alg».proof.Proof.Edges
import proofs.«138359_j6201932775762_1_alg».proof.Proof.RowReshape
import proofs.«138359_j6201932775762_1_alg».proof.Proof.RegionMM6
import proofs.«138359_j6201932775762_1_alg».proof.Proof.RegionBR7

set_option maxRecDepth 16384
-- the notations below mention a projection, which the eager check of notations does not handle
set_option quotPrecheck false

noncomputable section

namespace Cert.KernelIdeal.Layer4

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

-- the launch contents of the argument arrays
local notation "X0" => m ((c : Thread nD τ).loc main_arg0)
local notation "X1" => m ((c : Thread nD τ).loc main_arg1)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)

/-- The product with the weight matrix: the first region's output array. -/
theorem product (hin : W12 m ρ c (Proc.devRef .tc main_v77) = val_main_v83 (F := Ideal) X0 X1 X3 X4 X5 X6 X7 X8) :
    W13 m ρ c (Proc.devRef .tc main_v78) = val_main_v84 (F := Ideal) X0 X1 X3 X4 X5 X6 X7 X8 X9 :=
  (W13_arr m ρ c 2).trans ((RegionValue.mm6 (V12 m ρ) c).trans (by
    have h0 : V12 m ρ c (Pipeline.arrRef spec6 0) = val_main_v83 (F := Ideal) X0 X1 X3 X4 X5 X6 X7 X8 := hin
    have h1 : V12 m ρ c (Pipeline.arrRef spec6 1) = X9 := (Carry.late_at12 m ρ c (b := main_arg9) (by decide)).trans (Carry.param_at3 m ρ c (b := main_arg9) (by decide))
    rw [h0, h1]
    rfl))

/-- The aggregate over the edges: rows gathered at the sources, scaled by the weights, summed at the targets. -/
theorem aggregate (hin : W12 m ρ c (Proc.devRef .tc main_v77) = val_main_v83 (F := Ideal) X0 X1 X3 X4 X5 X6 X7 X8) :
    W14 m ρ c (Proc.devRef .tc main_v91) = val_main_v97 (F := Ideal) X0 X1 X3 X4 X5 X6 X7 X8 X9 := by
  show StableHlo.after hostOps7 (W13 m ρ c) (Proc.devRef .tc main_v91) = _
  after_results_simp
  rw [product m ρ c hin, (Carry.late_at13 m ρ c (b := main_v3) (by decide)).trans (Edges.src_at3 m ρ c), (Carry.late_at13 m ρ c (b := main_v6) (by decide)).trans (Edges.dst_at3 m ρ c),
    (Carry.late_at13 m ρ c (b := main_v29) (by decide)).trans (Edges.norm_at3 m ρ c)]
  rfl

/-- The bias as one row. -/
theorem biasRow :
    W14 m ρ c (Proc.devRef .tc main_v92) = val_main_v98 (F := Ideal) X10 := by
  show StableHlo.after hostOps7 (W13 m ρ c) (Proc.devRef .tc main_v92) = _
  after_results_simp
  rw [(Carry.late_at13 m ρ c (b := main_arg10) (by decide)).trans (Carry.param_at3 m ρ c (b := main_arg10) (by decide))]
  exact RowReshape.reshape_row_eq_broadcast _ _ _

/-- The layer's output: the aggregate plus the bias row, rectified — the second region's output array. -/
theorem output (hin : W12 m ρ c (Proc.devRef .tc main_v77) = val_main_v83 (F := Ideal) X0 X1 X3 X4 X5 X6 X7 X8) :
    W15 m ρ c (Proc.devRef .tc main_v93) = val_main_v101 (F := Ideal) X0 X1 X3 X4 X5 X6 X7 X8 X9 X10 :=
  (W15_arr m ρ c 2).trans ((RegionValue.br7 (V14 m ρ) c).trans (by
    have h0 : V14 m ρ c (Pipeline.arrRef spec7 0) = val_main_v97 (F := Ideal) X0 X1 X3 X4 X5 X6 X7 X8 X9 := aggregate m ρ c hin
    have h1 : V14 m ρ c (Pipeline.arrRef spec7 1) = val_main_v98 (F := Ideal) X10 := biasRow m ρ c
    rw [h0, h1]
    rfl))

end Cert.KernelIdeal.Layer4

end
-- ==== Proof.RegionMM8.lean ====
/-
  Region 8: a matrix product computed block by block.

  The region walks a grid of 10 points. At point t it loads rows 5000·t … 5000·t + 4999 of the [50000, 128] array
  under its first window and the whole [128, 128] array under its second, multiplies them into a zero accumulator,
  and writes the [5000, 128] product back as rows 5000·t … of the array under its third window. Entry (r, j) of
  that product reads row r of the block — row 5000·t + r of the array — and column j of the right operand, so the
  block written at point t is block t of the product of the two WHOLE arrays; the ten blocks tile the output
  array, which therefore ends holding that whole product.
-/
import proofs.«138359_j6201932775762_1_alg».proof.Proof.Gen.KernelIdeal.Frame
import proofs.«138359_j6201932775762_1_alg».proof.Proof.MatmulBlock
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable [Cert.ReferenceIdeal.Facts₀]
variable (V : (c : Dev nD) → (b : Ref sig .tc) → Buf (Elt Ideal) ((c : Thread nD τ).loc b))

/-- The body's accesses start at the origin of their buffers. -/
theorem origin8 : (![0, 0] : Fin 2 → Nat) = fun _ => 0 := funext fun a => by fin_cases a <;> rfl

/-- The body's payload is the block product of its two loaded blocks (where the body first casts the left block to its
    own shape, the cast changes nothing). -/
theorem pay8_eq (x0 : Vec Ideal S5000x128 .f32) (x1 : Vec Ideal S128x128 .f32) :
    k8_pay1 x0 x1 = matmul dot_S5000x128_S128x128_S5000x128_1_0_0_1_n_n none (truncf .bf16 x0 bitsLt_bf16_f32 : FVec Ideal S5000x128 .bf16)
      (truncf .bf16 x1 bitsLt_bf16_f32 : FVec Ideal S128x128 .bf16) (constant S5000x128 .f32 0x00000000#32) := by
  unfold k8_pay1
  first | rfl | rw [shapeCast_self]

/-- The index maps, decided over the grid: the left window's block of rows is the output window's, on the lane axis
    every window is at block 0, the right window stays at block (0, 0), and the output's row block is below 10. -/
theorem idx_facts8 : ∀ t : Fin cfg8.N,
      win8_0.index t (0 : Fin 2) = win8_2.index t (0 : Fin 2)
    ∧ win8_0.index t (1 : Fin 2) = 0
    ∧ win8_1.index t (0 : Fin 2) = 0
    ∧ win8_1.index t (1 : Fin 2) = 0
    ∧ win8_2.index t (1 : Fin 2) = 0
    ∧ win8_2.index t (0 : Fin 2) ≤ 9 :=
  (by decide +kernel : ∀ t : Fin grid8.N, _)

/-- Every one of the ten row blocks of the output is some point's. -/
theorem idx_onto8 : ∀ q : Fin 10, ∃ t : Fin cfg8.N, win8_2.index t = ![q.val, 0] :=
  (by decide +kernel : ∀ q : Fin 10, ∃ t : Fin grid8.N, win8_2.index t = ![q.val, 0])

set_option maxHeartbeats 1000000 in
/-- WHAT POINT `t` WRITES BACK is block `t` of the product of the two whole arrays the region finds under its input
    windows: row `r` of the block product reads row `r` of the left block, which is row `5000·t + r` of the left
    array, and the right block is the right array. -/
theorem flushed8_eq (c : Dev nD) (t : Fin cfg8.N) :
    (dat8 (F := Ideal) V c).flushed 2 t = ((cfg8.win 2).blk t).view.read (Elt Ideal)
      (Host.dotGeneral (F := Ideal) (φ₁ := .f32) (φ₂ := .f32) Cert.ReferenceIdeal.dot_S50000x128_S128x128_S50000x128_1_0_0_1_n_n none
        (V c (Pipeline.arrRef spec8 0)) (V c (Pipeline.arrRef spec8 1))) := by
  show (cfg8.win 2).cut (grid8.coords t) ((dat8 V c).after 2 t) = _
  rw [after8_2]
  unfold out8_2
  rw [View.canon_unit_zero origin8]
  simp only [View.ld_unit_zero (S := S5000x128) origin8, View.ld_unit_zero (S := S128x128) origin8]
  rw [pay8_eq]
  obtain ⟨e0, e1, e2, e3, e4, e5⟩ := idx_facts8 t
  funext y
  refine block_matmul_eq_whole_dot (V c (Pipeline.arrRef spec8 0)) (V c (Pipeline.arrRef spec8 1))
    (iblk8 V c 0 t) (iblk8 V c 1 t) bitsLt_bf16_f32 ((cfg8.win 2).xinj (grid8.coords t) y)
    (((cfg8.win 2).blk t).view.emb y) (fun k => ?_) (fun k => ?_)
  · show V c (Pipeline.arrRef spec8 0) (((cfg8.win 0).blk t).view.emb (ix2 (⟨(y 0).val, _⟩ : Fin 5000) k))
      = V c (Pipeline.arrRef spec8 0) (ix2 (⟨((((cfg8.win 2).blk t).view.emb y) 0).val, _⟩ : Fin 50000) k)
    refine congrArg _ (funext fun a => Fin.ext ?_)
    match a with
    | ⟨0, _⟩ => show win8_0.index t (0 : Fin 2) * 5000 + 1 * (y 0).val = win8_2.index t (0 : Fin 2) * 5000 + 1 * (y 0).val; omega
    | ⟨1, _⟩ => show win8_0.index t (1 : Fin 2) * 128 + 1 * k.val = k.val; omega
  · show V c (Pipeline.arrRef spec8 1) (((cfg8.win 1).blk t).view.emb (ix2 k (⟨(y 1).val, _⟩ : Fin 128)))
      = V c (Pipeline.arrRef spec8 1) (ix2 k (⟨((((cfg8.win 2).blk t).view.emb y) 1).val, _⟩ : Fin 128))
    refine congrArg _ (funext fun a => Fin.ext ?_)
    match a with
    | ⟨0, _⟩ => show win8_1.index t (0 : Fin 2) * 128 + 1 * k.val = k.val; omega
    | ⟨1, _⟩ => show win8_1.index t (1 : Fin 2) * 128 + 1 * (y 1).val = win8_2.index t (1 : Fin 2) * 128 + 1 * (y 1).val; omega

/-- An index of the output array is in point `t`'s block iff each coordinate is in the block's range on its axis. -/
theorem mem_blk8 (t : Fin cfg8.N) (i : S50000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v94).slice (win8_2.rect t)).set ↔ _
  rw [View.set_slice_whole, Rect.mem_set_unit]
  exact Iff.rfl

/-- The ten blocks tile the output array: row `i` is in the block of the point whose row block is `i / 5000`. -/
theorem cover8 (i : S50000x128.Idx) :
    ∃ t : Fin cfg8.N, (cfg8.win 2).flush t = true ∧ i ∈ ((cfg8.win 2).blk t).view.set := by
  have hi0 : (i 0).val < 50000 := (i 0).isLt
  have hi1 : (i 1).val < 128 := (i 1).isLt
  obtain ⟨t, ht⟩ := idx_onto8 ⟨(i 0).val / 5000, by omega⟩
  have q0 : win8_2.index t (0 : Fin 2) = (i 0).val / 5000 := congrFun ht 0
  have q1 : win8_2.index t (1 : Fin 2) = 0 := congrFun ht 1
  refine ⟨t, flush8_2 t, ?_⟩
  rw [mem_blk8]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

/-- THE OUTPUT ARRAY AFTER THE REGION is the product of the two whole arrays the region finds under its input
    windows. -/
theorem mm8 (c : Dev nD) :
    (dat8 (F := Ideal) V c).arrAt 2 cfg8.N
      = Host.dotGeneral (F := Ideal) (φ₁ := .f32) (φ₂ := .f32) Cert.ReferenceIdeal.dot_S50000x128_S128x128_S50000x128_1_0_0_1_n_n none (V c (Pipeline.arrRef spec8 0)) (V c (Pipeline.arrRef spec8 1)) :=
  (dat8 V c).arrAt_eq_of_cover 2 _ (fun t _ => flushed8_eq V c t) cover8

end Cert.KernelIdeal.RegionValue

end
-- ==== Proof.RegionBR9.lean ====
/-
  Region 9 (bias and rectifier), as one whole-array operation.

  The region walks a grid of 10 points.  At point `t` the body sees rows 5000·t … 5000·t + 4999 of the 50000 by 128
  input, and the whole one-row bias; it writes back the same rows of the output.  Its arithmetic is pointwise, so what
  point `t` writes back is block `t` of ONE function of the two input arrays,
      out (i, j) = max (A (i, j) + b (0, j)) 0,
  which is the host expression `maximumf (addf A (broadcast b)) (broadcast 0)`.  The ten blocks tile the output, so
  after the last write-back the output array IS that expression.  Nothing here but the index arithmetic of the blocks:
  row `r` of block `t` is row 5000·t + r of the array, every lane is kept, and the bias is always read at row 0.
-/
import proofs.«138359_j6201932775762_1_alg».proof.Proof.Gen.KernelIdeal.Frame
import proofs.«138359_j6201932775762_1_alg».proof.Proof.Gen.ReferenceIdeal
import proofs.«138359_j6201932775762_1_alg».proof.Proof.BiasBlock

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of the body's whole-buffer accesses, as the constant function. -/
theorem hz9 : (![0, 0] : Fin 2 → Nat) = fun _ => 0 := funext fun a => by fin_cases a <;> rfl

/-- The region's output as one function of its two input arrays: the reference's own operations. -/
abbrev G9 (A : Vec Ideal Cert.ReferenceIdeal.S50000x128 .f32) (B : Vec Ideal Cert.ReferenceIdeal.S1x128 .f32) :
    FVec Ideal Cert.ReferenceIdeal.S50000x128 .f32 :=
  maximumf (F := Ideal) (φ := .f32)
    (addf (F := Ideal) (φ := .f32) A
      (broadcastInDim Cert.ReferenceIdeal.S50000x128 ![0, 1] Cert.ReferenceIdeal.Gen.bcast_S1x128_S50000x128_0_1 B))
    (broadcastInDim Cert.ReferenceIdeal.S50000x128 ![] Cert.ReferenceIdeal.Gen.bcast_S_S50000x128
      (constant (F := Ideal) Cert.ReferenceIdeal.S_ .f32 0x00000000#32))

/-- The body's payload is the bias-and-rectifier expression of its two loaded blocks. -/
theorem pay9_eq (x0 : Vec Ideal S5000x128 .f32) (x1 : Vec Ideal S1x128 .f32) :
    k9_pay1 (F := Ideal) x0 x1
      = maximumf (addf (shapeCast S5000x128 x0 shapeCasts_S5000x128_S5000x128)
            (broadcastTo S5000x128 (shapeCast S1x128 x1 shapeCasts_S1x128_S1x128) broadcasts_S1x128_S5000x128))
          (broadcast S5000x128 (Scalar.ofBits (F := Ideal) .f32 0x00000000#32)) := rfl

/-- The printed index maps, decided once over the grid: the input and output blocks sit at the same block row (the
    point's number), on the one block column; the bias window is always its whole array. -/
theorem idx_facts9 : ∀ t : Fin cfg9.N, win9_0.index t (0 : Fin 2) = win9_2.index t (0 : Fin 2)
    ∧ win9_0.index t (1 : Fin 2) = 0
    ∧ win9_1.index t (0 : Fin 2) = 0
    ∧ win9_1.index t (1 : Fin 2) = 0
    ∧ win9_2.index t (0 : Fin 2) ≤ 9
    ∧ win9_2.index t (1 : Fin 2) = 0 :=
  (by decide +kernel : ∀ t : Fin grid9.N, _)

/-- Every block row of the output is some point's. -/
theorem idx_onto9 : ∀ q0 : Fin 10, ∃ t : Fin cfg9.N, win9_2.index t = ![q0.val, 0] :=
  (by decide +kernel : ∀ q0 : Fin 10, ∃ t : Fin grid9.N, win9_2.index t = ![q0.val, 0])

/-- ONE ELEMENT OF A BLOCK, over variables: if the loaded block `x0` at (p, q) is the array `A` at (i, q) and the loaded
    bias `x1` is `B`, the payload at (p, q) is the whole-array expression at (i, q). -/
theorem pay9_apply (A : Vec Ideal Cert.ReferenceIdeal.S50000x128 .f32) (B : Vec Ideal Cert.ReferenceIdeal.S1x128 .f32)
    (x0 : Vec Ideal S5000x128 .f32) (x1 : Vec Ideal S1x128 .f32) (i : Fin 50000) (p : Fin 5000) (q : Fin 128)
    (h0 : x0 (ix2 p q) = A (ix2 i q)) (h1 : x1 (ix2 (0 : Fin 1) q) = B (ix2 (0 : Fin 1) q)) :
    k9_pay1 (F := Ideal) x0 x1 (ix2 p q) = G9 A B (ix2 i q) := by
  rw [pay9_eq, biasRelu_body_apply, h0, h1]
  exact (biasRelu_host_apply _ _ _ A B i q).symm

/-- WHAT POINT `t` WRITES BACK is block `t` of `G9` of the two input arrays as the region finds them. -/
theorem flushed9_eq (c : Dev nD) (t : Fin cfg9.N) :
    (dat9 (F := Ideal) V c).flushed 2 t
      = ((cfg9.win 2).blk t).view.read (Elt Ideal) (G9 (V c (Pipeline.arrRef spec9 0)) (V c (Pipeline.arrRef spec9 1))) := by
  show (cfg9.win 2).cut (grid9.coords t) ((dat9 (F := Ideal) V c).after 2 t) = _
  rw [after9_2]
  unfold out9_2
  rw [View.canon_unit_zero hz9]
  simp only [View.ld_unit_zero (S := S5000x128) hz9, View.ld_unit_zero (S := S1x128) hz9]
  obtain ⟨e0, e1, e2, e3, e4, e5⟩ := idx_facts9 t
  funext j
  obtain ⟨p, q, rfl⟩ : ∃ (p : Fin 5000) (q : Fin 128), j = ix2 p q := ⟨j 0, j 1, eq_ix2 j⟩
  have hp : p.val < 5000 := p.isLt
  -- the row of the array under row `p` of block `t`
  refine (pay9_apply (V c (Pipeline.arrRef spec9 0)) (V c (Pipeline.arrRef spec9 1)) (iblk9 V c 0 t) (iblk9 V c 1 t)
    ⟨win9_2.index t (0 : Fin 2) * 5000 + p.val, by omega⟩ p q ?_ ?_).trans ?_
  · -- the input block's element: same block row as the output's, the one block column
    show V c (Pipeline.arrRef spec9 0) (((cfg9.win 0).blk t).view.emb (ix2 p q)) = _
    refine congrArg _ (funext fun a => Fin.ext ?_)
    match a with
    | ⟨0, _⟩ => show win9_0.index t (0 : Fin 2) * 5000 + 1 * p.val = win9_2.index t (0 : Fin 2) * 5000 + p.val; omega
    | ⟨1, _⟩ => show win9_0.index t (1 : Fin 2) * 128 + 1 * q.val = q.val; omega
  · -- the bias block is the whole one-row array
    show V c (Pipeline.arrRef spec9 1) (((cfg9.win 1).blk t).view.emb (ix2 (0 : Fin 1) q)) = _
    refine congrArg _ (funext fun a => Fin.ext ?_)
    match a with
    | ⟨0, _⟩ => show win9_1.index t (0 : Fin 2) * 1 + 1 * 0 = 0; omega
    | ⟨1, _⟩ => show win9_1.index t (1 : Fin 2) * 128 + 1 * q.val = q.val; omega
  · -- the output block's element sits at the same place
    show _ = G9 (V c (Pipeline.arrRef spec9 0)) (V c (Pipeline.arrRef spec9 1)) (((cfg9.win 2).blk t).view.emb (ix2 p q))
    refine congrArg _ (funext fun a => Fin.ext ?_)
    match a with
    | ⟨0, _⟩ => show win9_2.index t (0 : Fin 2) * 5000 + p.val = win9_2.index t (0 : Fin 2) * 5000 + 1 * p.val; omega
    | ⟨1, _⟩ => show q.val = win9_2.index t (1 : Fin 2) * 128 + 1 * q.val; omega

/-- An index of the output array is in point `t`'s block iff each coordinate is in the block's range on its axis. -/
theorem mem_blk9 (t : Fin cfg9.N) (i : S50000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v109).slice (win9_2.rect t)).set ↔ _
  rw [View.set_slice_whole, Rect.mem_set_unit]
  exact Iff.rfl

/-- THE BLOCKS TILE THE OUTPUT: row `r` is in the block of the point whose block row is `r / 5000`. -/
theorem cover9 (i : S50000x128.Idx) :
    ∃ t : Fin cfg9.N, (cfg9.win 2).flush t = true ∧ i ∈ ((cfg9.win 2).blk t).view.set := by
  have hi0 : (i 0).val < 50000 := (i 0).isLt
  have hi1 : (i 1).val < 128 := (i 1).isLt
  obtain ⟨t, ht⟩ := idx_onto9 ⟨(i 0).val / 5000, by omega⟩
  have q0 : win9_2.index t (0 : Fin 2) = (i 0).val / 5000 := congrFun ht 0
  have q1 : win9_2.index t (1 : Fin 2) = 0 := congrFun ht 1
  refine ⟨t, flush9_2 t, ?_⟩
  rw [mem_blk9]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 128 ≤ (i 1).val ∧ (i 1).val < win9_2.index t (1 : Fin 2) * 128 + 128; omega

/-- THE OUTPUT ARRAY after the region: the bias-and-rectifier expression of the two input arrays as the region finds
    them, as one whole-array host operation. -/
theorem br9 (c : Dev nD) :
    (dat9 (F := Ideal) V c).arrAt 2 cfg9.N
      = maximumf (F := Ideal) (φ := .f32)
          (addf (F := Ideal) (φ := .f32) (V c (Pipeline.arrRef spec9 0))
            (broadcastInDim Cert.ReferenceIdeal.S50000x128 ![0, 1] Cert.ReferenceIdeal.Gen.bcast_S1x128_S50000x128_0_1
              (V c (Pipeline.arrRef spec9 1))))
          (broadcastInDim Cert.ReferenceIdeal.S50000x128 ![] Cert.ReferenceIdeal.Gen.bcast_S_S50000x128
            (constant (F := Ideal) Cert.ReferenceIdeal.S_ .f32 0x00000000#32)) :=
  (dat9 (F := Ideal) V c).arrAt_eq_of_cover 2 (G9 (V c (Pipeline.arrRef spec9 0)) (V c (Pipeline.arrRef spec9 1)))
    (fun t _ => flushed9_eq V c t) (cover9)

end Cert.KernelIdeal.RegionValue

end
-- ==== Proof.Layer5.lean ====
/-
  Graph-convolution layer 5 of the idealized kernel, boundary by boundary.

  The layer's input `h` is the previous layer's output. A pipelined region multiplies it by the layer's weight
  matrix; the host operations after it gather the product's rows at the edges' sources, scale them by the edges'
  weights and add them up at the edges' targets, and reshape the bias to one row; a second region adds the bias to
  every row and takes the maximum with zero. The regions' output arrays are whole-array host operations of their input
  arrays (the matrix product; the sum with the broadcast row, then the maximum), and the host operations in between are
  the reference's own, so each buffer the layer writes holds the reference's stage of the same name: the two sides are
  the same composition of operations of the same inputs, compared as terms and never opened.
-/
import proofs.«138359_j6201932775762_1_alg».proof.Proof.Gen.KernelIdeal.Frame
import proofs.«138359_j6201932775762_1_alg».proof.Proof.RefRead
import proofs.«138359_j6201932775762_1_alg».proof.Proof.Carry
import proofs.«138359_j6201932775762_1_alg».proof.Proof.Edges
import proofs.«138359_j6201932775762_1_alg».proof.Proof.RowReshape
import proofs.«138359_j6201932775762_1_alg».proof.Proof.RegionMM8
import proofs.«138359_j6201932775762_1_alg».proof.Proof.RegionBR9

set_option maxRecDepth 16384
-- the notations below mention a projection, which the eager check of notations does not handle
set_option quotPrecheck false

noncomputable section

namespace Cert.KernelIdeal.Layer5

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

-- the launch contents of the argument arrays
local notation "X0" => m ((c : Thread nD τ).loc main_arg0)
local notation "X1" => m ((c : Thread nD τ).loc main_arg1)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)

/-- The product with the weight matrix: the first region's output array. -/
theorem product (hin : W15 m ρ c (Proc.devRef .tc main_v93) = val_main_v101 (F := Ideal) X0 X1 X3 X4 X5 X6 X7 X8 X9 X10) :
    W16 m ρ c (Proc.devRef .tc main_v94) = val_main_v102 (F := Ideal) X0 X1 X3 X4 X5 X6 X7 X8 X9 X10 X11 :=
  (W16_arr m ρ c 2).trans ((RegionValue.mm8 (V15 m ρ) c).trans (by
    have h0 : V15 m ρ c (Pipeline.arrRef spec8 0) = val_main_v101 (F := Ideal) X0 X1 X3 X4 X5 X6 X7 X8 X9 X10 := hin
    have h1 : V15 m ρ c (Pipeline.arrRef spec8 1) = X11 := (Carry.late_at15 m ρ c (b := main_arg11) (by decide)).trans (Carry.param_at3 m ρ c (b := main_arg11) (by decide))
    rw [h0, h1]
    rfl))

/-- The aggregate over the edges: rows gathered at the sources, scaled by the weights, summed at the targets. -/
theorem aggregate (hin : W15 m ρ c (Proc.devRef .tc main_v93) = val_main_v101 (F := Ideal) X0 X1 X3 X4 X5 X6 X7 X8 X9 X10) :
    W17 m ρ c (Proc.devRef .tc main_v107) = val_main_v115 (F := Ideal) X0 X1 X3 X4 X5 X6 X7 X8 X9 X10 X11 := by
  show StableHlo.after hostOps9 (W16 m ρ c) (Proc.devRef .tc main_v107) = _
  after_results_simp
  rw [product m ρ c hin, (Carry.late_at16 m ρ c (b := main_v3) (by decide)).trans (Edges.src_at3 m ρ c), (Carry.late_at16 m ρ c (b := main_v6) (by decide)).trans (Edges.dst_at3 m ρ c),
    (Carry.late_at16 m ρ c (b := main_v29) (by decide)).trans (Edges.norm_at3 m ρ c)]
  rfl

/-- The bias as one row. -/
theorem biasRow :
    W17 m ρ c (Proc.devRef .tc main_v108) = val_main_v116 (F := Ideal) X12 := by
  show StableHlo.after hostOps9 (W16 m ρ c) (Proc.devRef .tc main_v108) = _
  after_results_simp
  rw [(Carry.late_at16 m ρ c (b := main_arg12) (by decide)).trans (Carry.param_at3 m ρ c (b := main_arg12) (by decide))]
  exact RowReshape.reshape_row_eq_broadcast _ _ _

/-- The layer's output: the aggregate plus the bias row, rectified — the second region's output array. -/
theorem output (hin : W15 m ρ c (Proc.devRef .tc main_v93) = val_main_v101 (F := Ideal) X0 X1 X3 X4 X5 X6 X7 X8 X9 X10) :
    W18 m ρ c (Proc.devRef .tc main_v109) = val_main_v119 (F := Ideal) X0 X1 X3 X4 X5 X6 X7 X8 X9 X10 X11 X12 :=
  (W18_arr m ρ c 2).trans ((RegionValue.br9 (V17 m ρ) c).trans (by
    have h0 : V17 m ρ c (Pipeline.arrRef spec9 0) = val_main_v115 (F := Ideal) X0 X1 X3 X4 X5 X6 X7 X8 X9 X10 X11 := aggregate m ρ c hin
    have h1 : V17 m ρ c (Pipeline.arrRef spec9 1) = val_main_v116 (F := Ideal) X12 := biasRow m ρ c
    rw [h0, h1]
    rfl))

end Cert.KernelIdeal.Layer5

end
-- ==== Proof.RegionMBR10.lean ====
/-
  Region 10: a matrix product plus a bias row, clamped below at zero, computed block by block.

  The region walks a grid of 10 points. At point t it loads rows 5000·t … 5000·t + 4999 of the [50000, 128] array
  under its first window, the whole [128, 128] array under its second and the whole [1, 128] bias row under its
  third; it multiplies the first two into a zero accumulator, adds the bias row to every row of the product, takes
  the maximum with zero, and writes the [5000, 128] result back as rows 5000·t … of the array under its fourth
  window. Entry (r, j) of that result reads row r of the block — row 5000·t + r of the array —, column j of the
  right operand and entry j of the bias row, so the block written at point t is block t of the same expression of
  the three WHOLE arrays; the ten blocks tile the output array, which therefore ends holding that expression.
-/
import proofs.«138359_j6201932775762_1_alg».proof.Proof.Gen.KernelIdeal.Frame
import proofs.«138359_j6201932775762_1_alg».proof.Proof.MatmulBlock
import Idealize.ShloMosaic.Lib.Pipeline.Value
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable [Cert.ReferenceIdeal.Facts₀]
variable (V : (c : Dev nD) → (b : Ref sig .tc) → Buf (Elt Ideal) ((c : Thread nD τ).loc b))

/-! ## One entry of a block against one entry of the whole -/

/-- BLOCK `t` OF THE WHOLE EXPRESSION IS THE BLOCK EXPRESSION OF BLOCK `t`. Let `x` be a block of rows of `X`, `w` the
    array `W` and `b` the bias row `B`: entry `z` of the block sits at entry `i` of the array, which is to say
    (`hx`) row `z 0` of `x` is row `i 0` of `X`, (`hw`) column `z 1` of `w` is column `i 1` of `W`, and (`hbias`) entry
    `z 1` of `b` is entry `i 1` of `B`. Then product plus bias row, clamped at zero, agree at `z` and at `i`: the
    products by the block-product lemma, the bias because a row broadcast over the rows reads the row's entry at the
    column whatever the row, the zero because both are the extended real the zero word encodes. -/
theorem block_mm_bias_relu_eq_whole (X : Cert.ReferenceIdeal.S50000x128.Idx → EReal) (W : Cert.ReferenceIdeal.S128x128.Idx → EReal)
    (B : FVec Ideal Cert.ReferenceIdeal.S1x128 .f32)
    (x : Vec Ideal S5000x128 .f32) (w : Vec Ideal S128x128 .f32) (b : Vec Ideal S1x128 .f32)
    (hb : FTy.bits .bf16 < FTy.bits .f32) (hbr : S1x128.Broadcasts S5000x128)
    (z : S5000x128.Idx) (i : Cert.ReferenceIdeal.S50000x128.Idx)
    (hx : ∀ k : Fin 128, x (ix2 (⟨(z 0).val, idx2_lt0 z⟩ : Fin 5000) k) = X (ix2 (⟨(i 0).val, idx2_lt0 i⟩ : Fin 50000) k))
    (hw : ∀ k : Fin 128, w (ix2 k (⟨(z 1).val, idx2_lt1 z⟩ : Fin 128)) = W (ix2 k (⟨(i 1).val, idx2_lt1 i⟩ : Fin 128)))
    (hbias : b (ix2 (0 : Fin 1) (⟨(z 1).val, idx2_lt1 z⟩ : Fin 128)) = B (ix2 (0 : Fin 1) (⟨(i 1).val, idx2_lt1 i⟩ : Fin 128))) :
    (maximumf (addf (matmul dot_S5000x128_S128x128_S5000x128_1_0_0_1_n_n none (truncf .bf16 x hb : FVec Ideal S5000x128 .bf16)
                        (truncf .bf16 w hb : FVec Ideal S128x128 .bf16) (constant S5000x128 .f32 0x00000000#32))
                    (broadcastTo S5000x128 b hbr))
              (broadcast S5000x128 (Scalar.ofBits (F := Ideal) .f32 0x00000000#32)) : FVec Ideal S5000x128 .f32) z
      = (maximumf (addf (Host.dotGeneral (F := Ideal) (φ₁ := .f32) (φ₂ := .f32) Cert.ReferenceIdeal.dot_S50000x128_S128x128_S50000x128_1_0_0_1_n_n none X W)
                         (broadcastInDim Cert.ReferenceIdeal.S50000x128 ![0, 1] Cert.ReferenceIdeal.Facts₀.bcast_S1x128_S50000x128_0_1 B))
               (broadcastInDim Cert.ReferenceIdeal.S50000x128 ![] Cert.ReferenceIdeal.Facts₀.bcast_S_S50000x128 (constant (F := Ideal) Cert.ReferenceIdeal.S_ .f32 0x00000000#32))) i := by
  have hd := block_matmul_eq_whole_dot X W x w hb z i hx hw
  obtain ⟨r, j, rfl⟩ : ∃ (r : Fin 5000) (j : Fin 128), z = ix2 r j := ⟨z 0, z 1, eq_ix2 z⟩
  obtain ⟨i0, j0, rfl⟩ : ∃ (i0 : Fin 50000) (j0 : Fin 128), i = ix2 i0 j0 := ⟨i 0, i 1, eq_ix2 i⟩
  have hl : broadcastTo S5000x128 b hbr (ix2 r j) = b (ix2 (0 : Fin 1) j) := broadcastTo_1b_ab_apply b hbr r j
  have hr1 : broadcastInDim Cert.ReferenceIdeal.S50000x128 ![0, 1] Cert.ReferenceIdeal.Facts₀.bcast_S1x128_S50000x128_0_1 B (ix2 i0 j0) = B (ix2 (0 : Fin 1) j0) :=
    broadcastInDim_apply _ Cert.ReferenceIdeal.Facts₀.bcast_S1x128_S50000x128_0_1 B (ix2 i0 j0) (ix2 (0 : Fin 1) j0) (fun a => match a with
      | ⟨0, _⟩ => by show 0 = if (1 : Nat) = 1 then 0 else i0.val; rw [if_pos rfl]
      | ⟨1, _⟩ => by show j0.val = if (128 : Nat) = 1 then 0 else j0.val; rw [if_neg (by decide)])
  have hr2 : broadcastInDim Cert.ReferenceIdeal.S50000x128 ![] Cert.ReferenceIdeal.Facts₀.bcast_S_S50000x128 (constant (F := Ideal) Cert.ReferenceIdeal.S_ .f32 0x00000000#32) (ix2 i0 j0)
      = Ideal.ofBits .f32 0x00000000#32 :=
    broadcastInDim_apply _ Cert.ReferenceIdeal.Facts₀.bcast_S_S50000x128 (constant (F := Ideal) Cert.ReferenceIdeal.S_ .f32 0x00000000#32) (ix2 i0 j0) ix0 (fun a => a.elim0)
  have hbias' : b (ix2 (0 : Fin 1) j) = B (ix2 (0 : Fin 1) j0) := hbias
  rw [maximumf_apply, maximumf_apply, addf_apply, addf_apply, broadcast_apply, hd, hl, hr1, hr2, hbias']
  rfl

/-! ## The region -/

/-- The body's accesses start at the origin of their buffers. -/
theorem origin10 : (![0, 0] : Fin 2 → Nat) = fun _ => 0 := funext fun a => by fin_cases a <;> rfl

/-- The body's payload is the block product of its first two loaded blocks, plus the bias block broadcast over the
    rows, clamped below at zero (the casts of the left block and of the bias block to their own shapes change
    nothing). -/
theorem pay10_eq (x0 : Vec Ideal S5000x128 .f32) (x1 : Vec Ideal S128x128 .f32) (x2 : Vec Ideal S1x128 .f32) :
    k10_pay1 x0 x1 x2 = maximumf (addf (matmul dot_S5000x128_S128x128_S5000x128_1_0_0_1_n_n none (truncf .bf16 x0 bitsLt_bf16_f32 : FVec Ideal S5000x128 .bf16)
          (truncf .bf16 x1 bitsLt_bf16_f32 : FVec Ideal S128x128 .bf16) (constant S5000x128 .f32 0x00000000#32))
        (broadcastTo S5000x128 x2 broadcasts_S1x128_S5000x128))
      (broadcast S5000x128 (Scalar.ofBits (F := Ideal) .f32 0x00000000#32)) := by
  unfold k10_pay1
  rw [shapeCast_self, shapeCast_self]

/-- The index maps, decided over the grid: the left window's block of rows is the output window's, on the lane axis
    every window is at block 0, the right window and the bias window stay at block (0, 0), and the output's row
    block is below 10. -/
theorem idx_facts10 : ∀ t : Fin cfg10.N,
      win10_0.index t (0 : Fin 2) = win10_3.index t (0 : Fin 2)
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (1 : Fin 2) = 0
    ∧ win10_3.index t (0 : Fin 2) ≤ 9 :=
  (by decide +kernel : ∀ t : Fin grid10.N, _)

/-- Every one of the ten row blocks of the output is some point's. -/
theorem idx_onto10 : ∀ q : Fin 10, ∃ t : Fin cfg10.N, win10_3.index t = ![q.val, 0] :=
  (by decide +kernel : ∀ q : Fin 10, ∃ t : Fin grid10.N, win10_3.index t = ![q.val, 0])

set_option maxHeartbeats 1000000 in
/-- WHAT POINT `t` WRITES BACK is block `t` of product plus bias row, clamped at zero, of the three whole arrays the
    region finds under its input windows: row `r` of the block expression reads row `r` of the left block, which is
    row `5000·t + r` of the left array; the right block is the right array and the bias block the bias row. -/
theorem flushed10_eq (c : Dev nD) (t : Fin cfg10.N) :
    (dat10 (F := Ideal) V c).flushed 3 t = ((cfg10.win 3).blk t).view.read (Elt Ideal)
      (maximumf (addf (Host.dotGeneral (F := Ideal) (φ₁ := .f32) (φ₂ := .f32) Cert.ReferenceIdeal.dot_S50000x128_S128x128_S50000x128_1_0_0_1_n_n none (V c (Pipeline.arrRef spec10 0)) (V c (Pipeline.arrRef spec10 1)))
                       (broadcastInDim Cert.ReferenceIdeal.S50000x128 ![0, 1] Cert.ReferenceIdeal.Facts₀.bcast_S1x128_S50000x128_0_1 (V c (Pipeline.arrRef spec10 2))))
             (broadcastInDim Cert.ReferenceIdeal.S50000x128 ![] Cert.ReferenceIdeal.Facts₀.bcast_S_S50000x128 (constant (F := Ideal) Cert.ReferenceIdeal.S_ .f32 0x00000000#32))) := by
  show (cfg10.win 3).cut (grid10.coords t) ((dat10 V c).after 3 t) = _
  rw [after10_3]
  unfold out10_3
  rw [View.canon_unit_zero origin10]
  simp only [View.ld_unit_zero (S := S5000x128) origin10, View.ld_unit_zero (S := S128x128) origin10,
    View.ld_unit_zero (S := S1x128) origin10]
  rw [pay10_eq]
  obtain ⟨e0, e1, e2, e3, e4, e5, e6, e7⟩ := idx_facts10 t
  funext y
  refine block_mm_bias_relu_eq_whole (V c (Pipeline.arrRef spec10 0)) (V c (Pipeline.arrRef spec10 1))
    (V c (Pipeline.arrRef spec10 2)) (iblk10 V c 0 t) (iblk10 V c 1 t) (iblk10 V c 2 t) bitsLt_bf16_f32
    broadcasts_S1x128_S5000x128 ((cfg10.win 3).xinj (grid10.coords t) y)
    (((cfg10.win 3).blk t).view.emb y) (fun k => ?_) (fun k => ?_) ?_
  · show V c (Pipeline.arrRef spec10 0) (((cfg10.win 0).blk t).view.emb (ix2 (⟨(y 0).val, _⟩ : Fin 5000) k))
      = V c (Pipeline.arrRef spec10 0) (ix2 (⟨((((cfg10.win 3).blk t).view.emb y) 0).val, _⟩ : Fin 50000) k)
    refine congrArg _ (funext fun a => Fin.ext ?_)
    match a with
    | ⟨0, _⟩ => show win10_0.index t (0 : Fin 2) * 5000 + 1 * (y 0).val = win10_3.index t (0 : Fin 2) * 5000 + 1 * (y 0).val; omega
    | ⟨1, _⟩ => show win10_0.index t (1 : Fin 2) * 128 + 1 * k.val = k.val; omega
  · show V c (Pipeline.arrRef spec10 1) (((cfg10.win 1).blk t).view.emb (ix2 k (⟨(y 1).val, _⟩ : Fin 128)))
      = V c (Pipeline.arrRef spec10 1) (ix2 k (⟨((((cfg10.win 3).blk t).view.emb y) 1).val, _⟩ : Fin 128))
    refine congrArg _ (funext fun a => Fin.ext ?_)
    match a with
    | ⟨0, _⟩ => show win10_1.index t (0 : Fin 2) * 128 + 1 * k.val = k.val; omega
    | ⟨1, _⟩ => show win10_1.index t (1 : Fin 2) * 128 + 1 * (y 1).val = win10_3.index t (1 : Fin 2) * 128 + 1 * (y 1).val; omega
  · show V c (Pipeline.arrRef spec10 2) (((cfg10.win 2).blk t).view.emb (ix2 (0 : Fin 1) (⟨(y 1).val, _⟩ : Fin 128)))
      = V c (Pipeline.arrRef spec10 2) (ix2 (0 : Fin 1) (⟨((((cfg10.win 3).blk t).view.emb y) 1).val, _⟩ : Fin 128))
    refine congrArg _ (funext fun a => Fin.ext ?_)
    match a with
    | ⟨0, _⟩ => show win10_2.index t (0 : Fin 2) * 1 + 1 * 0 = 0; omega
    | ⟨1, _⟩ => show win10_2.index t (1 : Fin 2) * 128 + 1 * (y 1).val = win10_3.index t (1 : Fin 2) * 128 + 1 * (y 1).val; omega

/-- An index of the output array is in point `t`'s block iff each coordinate is in the block's range on its axis. -/
theorem mem_blk10 (t : Fin cfg10.N) (i : S50000x128.Idx) :
    i ∈ ((cfg10.win 3).blk t).view.set ↔ ∀ a : Fin 2, win10_3.index t a * S5000x128.size a ≤ (i a).val ∧ (i a).val < win10_3.index t a * S5000x128.size a + S5000x128.size a := by
  show i ∈ ((View.whole main_v111).slice (win10_3.rect t)).set ↔ _
  rw [View.set_slice_whole, Rect.mem_set_unit]
  exact Iff.rfl

/-- The ten blocks tile the output array: row `i` is in the block of the point whose row block is `i / 5000`. -/
theorem cover10 (i : S50000x128.Idx) :
    ∃ t : Fin cfg10.N, (cfg10.win 3).flush t = true ∧ i ∈ ((cfg10.win 3).blk t).view.set := by
  have hi0 : (i 0).val < 50000 := (i 0).isLt
  have hi1 : (i 1).val < 128 := (i 1).isLt
  obtain ⟨t, ht⟩ := idx_onto10 ⟨(i 0).val / 5000, by omega⟩
  have q0 : win10_3.index t (0 : Fin 2) = (i 0).val / 5000 := congrFun ht 0
  have q1 : win10_3.index t (1 : Fin 2) = 0 := congrFun ht 1
  refine ⟨t, flush10_3 t, ?_⟩
  rw [mem_blk10]
  intro a
  match a with
  | ⟨0, _⟩ => show win10_3.index t (0 : Fin 2) * 5000 ≤ (i 0).val ∧ (i 0).val < win10_3.index t (0 : Fin 2) * 5000 + 5000; omega
  | ⟨1, _⟩ => show win10_3.index t (1 : Fin 2) * 128 ≤ (i 1).val ∧ (i 1).val < win10_3.index t (1 : Fin 2) * 128 + 128; omega

/-- THE OUTPUT ARRAY AFTER THE REGION is the product of the first two whole arrays the region finds under its input
    windows, plus the bias row broadcast over the rows, clamped below at zero. -/
theorem mbr10 (c : Dev nD) :
    (dat10 (F := Ideal) V c).arrAt 3 cfg10.N
      = maximumf (addf (Host.dotGeneral (F := Ideal) (φ₁ := .f32) (φ₂ := .f32) Cert.ReferenceIdeal.dot_S50000x128_S128x128_S50000x128_1_0_0_1_n_n none (V c (Pipeline.arrRef spec10 0)) (V c (Pipeline.arrRef spec10 1)))
                     (broadcastInDim Cert.ReferenceIdeal.S50000x128 ![0, 1] Cert.ReferenceIdeal.Facts₀.bcast_S1x128_S50000x128_0_1 (V c (Pipeline.arrRef spec10 2))))
           (broadcastInDim Cert.ReferenceIdeal.S50000x128 ![] Cert.ReferenceIdeal.Facts₀.bcast_S_S50000x128 (constant (F := Ideal) Cert.ReferenceIdeal.S_ .f32 0x00000000#32)) :=
  (dat10 V c).arrAt_eq_of_cover 3 _ (fun t _ => flushed10_eq V c t) cover10

end Cert.KernelIdeal.RegionValue

end
-- ==== Proof.Readout.lean ====
/-
  The readout of the idealized kernel: the last region.

  After the fifth layer one host operation reshapes the last bias to one row, and one pipelined region multiplies the
  layer's output by the last weight matrix, adds the bias row to every row and takes the maximum with zero. Its output
  array is that whole-array expression of its input arrays, which is the reference's last stage.
-/
import proofs.«138359_j6201932775762_1_alg».proof.Proof.Gen.KernelIdeal.Frame
import proofs.«138359_j6201932775762_1_alg».proof.Proof.RefRead
import proofs.«138359_j6201932775762_1_alg».proof.Proof.Carry
import proofs.«138359_j6201932775762_1_alg».proof.Proof.RowReshape
import proofs.«138359_j6201932775762_1_alg».proof.Proof.RegionMBR10

set_option maxRecDepth 16384
-- the notations below mention a projection, which the eager check of notations does not handle
set_option quotPrecheck false

noncomputable section

namespace Cert.KernelIdeal.Readout

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

-- the launch contents of the argument arrays
local notation "X0" => m ((c : Thread nD τ).loc main_arg0)
local notation "X1" => m ((c : Thread nD τ).loc main_arg1)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)

/-- The last bias as one row. -/
theorem biasRow :
    W19 m ρ c (Proc.devRef .tc main_v110) = val_main_v121 (F := Ideal) X14 := by
  show StableHlo.after hostOps10 (W18 m ρ c) (Proc.devRef .tc main_v110) = _
  after_results_simp
  rw [(Carry.late_at18 m ρ c (b := main_arg14) (by decide)).trans (Carry.param_at3 m ρ c (b := main_arg14) (by decide))]
  exact RowReshape.reshape_row_eq_broadcast _ _ _

/-- The reshape leaves the fifth layer's output where it is. -/
theorem kept (hin : W18 m ρ c (Proc.devRef .tc main_v109) = val_main_v119 (F := Ideal) X0 X1 X3 X4 X5 X6 X7 X8 X9 X10 X11 X12) :
    W19 m ρ c (Proc.devRef .tc main_v109) = val_main_v119 (F := Ideal) X0 X1 X3 X4 X5 X6 X7 X8 X9 X10 X11 X12 := by
  show StableHlo.after hostOps10 (W18 m ρ c) (Proc.devRef .tc main_v109) = _
  after_results_simp
  exact hin

/-- The program's result: the last region's output array. -/
theorem result (hin : W18 m ρ c (Proc.devRef .tc main_v109) = val_main_v119 (F := Ideal) X0 X1 X3 X4 X5 X6 X7 X8 X9 X10 X11 X12) :
    W20 m ρ c (Proc.devRef .tc main_v111) = val_main_v124 (F := Ideal) X0 X1 X3 X4 X5 X6 X7 X8 X9 X10 X11 X12 X13 X14 :=
  (W20_arr m ρ c 3).trans ((RegionValue.mbr10 (V19 m ρ) c).trans (by
    have h0 : V19 m ρ c (Pipeline.arrRef spec10 0) = val_main_v119 (F := Ideal) X0 X1 X3 X4 X5 X6 X7 X8 X9 X10 X11 X12 := kept m ρ c hin
    have h1 : V19 m ρ c (Pipeline.arrRef spec10 1) = X13 := (Carry.late_at19 m ρ c (b := main_arg13) (by decide)).trans (Carry.param_at3 m ρ c (b := main_arg13) (by decide))
    have h2 : V19 m ρ c (Pipeline.arrRef spec10 2) = val_main_v121 (F := Ideal) X14 := biasRow m ρ c
    rw [h0, h1, h2]
    rfl))

end Cert.KernelIdeal.Readout

end
-- ==== Proof.lean ====
/-
  A five-layer graph convolutional network with a dense readout: the Pallas kernel against its jnp reference, over
  the extended reals.

  Both programs first extend the 800000 given edges by one self loop per node and compute, from the edge index alone,
  each edge's source `src`, its target `dst` and its weight `norm = dinv[src] * dinv[dst]`, where `deg` counts the edges
  into a node and `dinv = deg > 0 ? rsqrt deg : 0`. A layer maps `h` to `relu (segment_sum ((h W)[src] * norm, dst) + b)`;
  the result is `relu (h₅ Wl + bl)`.

  The reference does all of this with host operations. The kernel does the products `h W` and the epilogues
  `relu (· + b)` (and, fused, the readout) in eleven pipelined regions over blocks of 5000 rows, converting the factors
  to bf16 first, and everything between the regions with the SAME host operations as the reference. At the ideal
  instance a change of float format is the identity, a block matrix product into a zero accumulator is the rows
  5000 t … 5000 t + 4999 of the whole product (an output row depends on its own input row only: no sum is split or
  regrouped), and a pointwise epilogue on a block of rows is the whole-array expression on those rows. So every region's
  output array is a whole-array host operation of its input arrays, every buffer the kernel's program writes holds
  the reference's stage of the same meaning, and the two results are one term of the arguments. No law of the extended
  reals is used — not even commutativity —, so the finiteness of the inputs is never opened.

  Modules: `KernelRun` (the kernel's run with its result named), `Carry` (what the segments leave alone), `Edges`
  (`src`, `dst`, `norm`), `MatmulBlock` / `BiasBlock` and `RegionMM*` / `RegionBR*` / `RegionMBR10` (each region's output array),
  `RowReshape` (a bias as one row), `Layer1` … `Layer5` and `Readout` (the chain of boundaries), `RefRun` / `RefRead` (the
  reference's run and its stages).
-/
import proofs.«138359_j6201932775762_1_alg».proof.Defs
import proofs.«138359_j6201932775762_1_alg».proof.Proof.Gen.Kernel
import proofs.«138359_j6201932775762_1_alg».proof.Proof.Gen.Kernel.Frame
import proofs.«138359_j6201932775762_1_alg».proof.Proof.Gen.KernelIdeal
import proofs.«138359_j6201932775762_1_alg».proof.Proof.Gen.KernelIdeal.Frame
import proofs.«138359_j6201932775762_1_alg».proof.Proof.Gen.ReferenceIdeal
import proofs.«138359_j6201932775762_1_alg».proof.Proof.Gen.Pre_finite_inputs
import proofs.«138359_j6201932775762_1_alg».proof.Proof.RefRead
import proofs.«138359_j6201932775762_1_alg».proof.Proof.KernelRun
import proofs.«138359_j6201932775762_1_alg».proof.Proof.Layer1
import proofs.«138359_j6201932775762_1_alg».proof.Proof.Layer2
import proofs.«138359_j6201932775762_1_alg».proof.Proof.Layer3
import proofs.«138359_j6201932775762_1_alg».proof.Proof.Layer4
import proofs.«138359_j6201932775762_1_alg».proof.Proof.Layer5
import proofs.«138359_j6201932775762_1_alg».proof.Proof.Readout
import Idealize.ShloMosaic.Adequacy
import Idealize.ShloMosaic.Init

set_option maxRecDepth 16384

noncomputable section

namespace Cert.Proof

open Idealize.ShloMosaic Idealize.ShloMosaic.TcCoe Idealize.SL.Sem

/-- The kernel's result buffer at the last boundary of its @main is the reference's last stage of the kernel's own
    arguments: the five layers and the readout, chained. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W20 m ρ c (Proc.devRef .tc Cert.KernelIdeal.main_v111)
      = Cert.ReferenceIdeal.ReadP.val_main_v124 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) :=
  Cert.KernelIdeal.Readout.result m ρ c
    (Cert.KernelIdeal.Layer5.output m ρ c
      (Cert.KernelIdeal.Layer4.output m ρ c
        (Cert.KernelIdeal.Layer3.output m ρ c
          (Cert.KernelIdeal.Layer2.output m ρ c
            (Cert.KernelIdeal.Layer1.output m ρ c)))))

/-- The three frames: the two kernels' by their frame certificates, the reference's by its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read at the ideal instance. -/
theorem preserves : Cert.preserves_Kernel_KernelIdeal := trivial

/-- From memories agreeing on the arguments both programs end with the same result: the kernel's is the reference's
    last stage of its own arguments (`kernel_value`), the reference's is that stage of its arguments, and the
    arguments agree. -/
theorem algebraic : Cert.algebraic_KernelIdeal_ReferenceIdeal := by
  intro m ρ m' ρ' _ hagree
  refine ⟨fun c => Cert.KernelIdeal.Gen.W20 m ρ c (Proc.devRef .tc Cert.KernelIdeal.main_v111),
    Cert.KernelIdeal.RunValue.run_main m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v124 m' c = Cert.KernelIdeal.Gen.W20 m ρ c (Proc.devRef .tc Cert.KernelIdeal.main_v111)
  rw [Cert.ReferenceIdeal.ReadP.val_main_v124_eq, kernel_value m ρ c]
  obtain ⟨e0, e1, _, e3, e4, e5, e6, e7, e8, e9, e10, e11, e12, e13, e14⟩ := hagree c
  rw [e0, e1, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
